-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S3x96x96 : Shape := ⟨3, ![3, 96, 96]⟩
abbrev S3x96 : Shape := ⟨2, ![3, 96]⟩
abbrev S96x40 : Shape := ⟨2, ![96, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S3x96x96 : S_.BroadcastsInDim S3x96x96 (![] : Fin 0 → Fin S3x96x96.rank)
  reducesTo_S3x96x96_S_d0_1_2 : S3x96x96.ReducesTo [0, 1, 2] S_
  bcast_S_S3x96 : S_.BroadcastsInDim S3x96 (![] : Fin 0 → Fin S3x96.rank)
  reducesTo_S3x96_S_d0_1 : S3x96.ReducesTo [0, 1] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg5 : FVec F S3x96 .f32) (main_arg6 : FVec F S3x96x96 .f32) (main_arg7 : FVec F S96x40 .f32) (main_arg8 : FVec F S40 .f32) (main_v13 : IVec S_ 1) (main_v16 : IVec S3x96x96 1) : IVec S_ 1 :=
  let main_c_5 : IVec S_ 1 := constantI S_ 1 1#1
  let main_v17 : IVec S_ 1 := (fun x v => Host.reduce IntOp.andi x v reducesTo_S3x96x96_S_d0_1_2 h_S_) main_v16 main_c_5
  let main_v18 : IVec S_ 1 := andi main_v13 main_v17
  let main_v19 : FVec F S3x96 .f32 := Host.absf main_arg5
  let main_cst_6 : FVec F S_ .f32 := constant S_ .f32 0x7F800000#32
  let main_v20 : FVec F S3x96 .f32 := broadcastInDim S3x96 ![] bcast_S_S3x96 main_cst_6
  let main_v21 : IVec S3x96 1 := cmpf .olt main_v19 main_v20
  let main_c_7 : IVec S_ 1 := constantI S_ 1 1#1
  let main_v22 : IVec S_ 1 := (fun x v => Host.reduce IntOp.andi x v reducesTo_S3x96_S_d0_1 h_S_) main_v21 main_c_7
  let main_v23 : IVec S_ 1 := andi main_v18 main_v22
  let main_v24 : FVec F S3x96x96 .f32 := Host.absf main_arg6
  let main_cst_8 : FVec F S_ .f32 := constant S_ .f32 0x7F800000#32
  let main_v25 : FVec F S3x96x96 .f32 := broadcastInDim S3x96x96 ![] bcast_S_S3x96x96 main_cst_8
  let main_v26 : IVec S3x96x96 1 := cmpf .olt main_v24 main_v25
  let main_c_9 : IVec S_ 1 := constantI S_ 1 1#1
  let main_v27 : IVec S_ 1 := (fun x v => Host.reduce IntOp.andi x v reducesTo_S3x96x96_S_d0_1_2 h_S_) main_v26 main_c_9
  let main_v28 : IVec S_ 1 := andi main_v23 main_v27
  let main_v29 : FVec F S96x40 .f32 := Host.absf main_arg7
  let main_cst_10 : FVec F S_ .f32 := constant S_ .f32 0x7F800000#32
  let main_v30 : FVec F S96x40 .f32 := broadcastInDim S96x40 ![] bcast_S_S96x40 main_cst_10
  let main_v31 : IVec S96x40 1 := cmpf .olt main_v29 main_v30
  let main_c_11 : IVec S_ 1 := constantI S_ 1 1#1
  let main_v32 : IVec S_ 1 := (fun x v => Host.reduce IntOp.andi x v reducesTo_S96x40_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S128x96 .f32) (main_arg3 : FVec F S96 .f32) (main_arg4 : FVec F S3x96x96 .f32) (main_arg5 : FVec F S3x96 .f32) (main_arg6 : FVec F S3x96x96 .f32) (main_arg7 : FVec F S96x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S3x96x96 .f32 := Host.absf main_arg4
  let main_cst_4 : FVec F S_ .f32 := constant S_ .f32 0x7F800000#32
  let main_v15 : FVec F S3x96x96 .f32 := broadcastInDim S3x96x96 ![] bcast_S_S3x96x96 main_cst_4
  let main_v16 : IVec S3x96x96 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S3x96x96 : Shape := ⟨3, ![3, 96, 96]⟩
abbrev S3x96 : Shape := ⟨2, ![3, 96]⟩
abbrev S96x40 : Shape := ⟨2, ![96, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x96 : Shape := ⟨2, ![50000, 96]⟩
abbrev S10000x128 : Shape := ⟨2, ![10000, 128]⟩
abbrev S10000x96 : Shape := ⟨2, ![10000, 96]⟩
abbrev S1x96 : Shape := ⟨2, ![1, 96]⟩
abbrev S800000x96 : Shape := ⟨2, ![800000, 96]⟩
abbrev S1x96x96 : Shape := ⟨3, ![1, 96, 96]⟩
abbrev S96x96 : Shape := ⟨2, ![96, 96]⟩
abbrev S96x128 : Shape := ⟨2, ![96, 128]⟩
abbrev S128 : Shape := ⟨1, ![128]⟩
abbrev S1x128 : Shape := ⟨2, ![1, 128]⟩
abbrev S50000x40 : Shape := ⟨2, ![50000, 40]⟩

abbrev nBuf : Space → Nat
  | .hbm => 120
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S3x96x96, .f32⟩
  | .hbm, ⟨5, _⟩ => ⟨S3x96, .f32⟩
  | .hbm, ⟨6, _⟩ => ⟨S3x96x96, .f32⟩
  | .hbm, ⟨7, _⟩ => ⟨S96x40, .f32⟩
  | .hbm, ⟨8, _⟩ => ⟨S40, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000x1, .f32⟩
  | .hbm, ⟨15, _⟩ => ⟨S_, .f32⟩
  | .hbm, ⟨16, _⟩ => ⟨S50000x1, .f32⟩
  | .hbm, ⟨17, _⟩ => ⟨S800000x1, .i32⟩
  | .hbm, ⟨18, _⟩ => ⟨S50000x1, .f32⟩
  | .hbm, ⟨19, _⟩ => ⟨S_, .f32⟩
  | .hbm, ⟨20, _⟩ => ⟨S50000x1, .f32⟩
  | .hbm, ⟨21, _⟩ => ⟨S50000x1, .f32⟩
  | .hbm, ⟨22, _⟩ => ⟨S50000x96, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x96, .f32⟩
  | .hbm, ⟨32, _⟩ => ⟨S_, .f32⟩
  | .hbm, ⟨33, _⟩ => ⟨S50000x96, .f32⟩
  | .hbm, ⟨34, _⟩ => ⟨S800000x1, .i32⟩
  | .hbm, ⟨35, _⟩ => ⟨S50000x96, .f32⟩
  | .hbm, ⟨36, _⟩ => ⟨S_, .f32⟩
  | .hbm, ⟨37, _⟩ => ⟨S50000x1, .f32⟩
  | .hbm, ⟨38, _⟩ => ⟨S50000x1, .i1⟩
  | .hbm, ⟨39, _⟩ => ⟨S50000x96, .f32⟩
  | .hbm, ⟨40, _⟩ => ⟨S50000x96, .f32⟩
  | .hbm, ⟨41, _⟩ => ⟨S_, .f32⟩
  | .hbm, ⟨42, _⟩ => ⟨S_, .f32⟩
  | .hbm, ⟨43, _⟩ => ⟨S50000x96, .i1⟩
  | .hbm, ⟨44, _⟩ => ⟨S50000x96, .f32⟩
  | .hbm, ⟨45, _⟩ => ⟨S50000x96, .f32⟩
  | .hbm, ⟨46, _⟩ => ⟨S1x96x96, .f32⟩
  | .hbm, ⟨47, _⟩ => ⟨S96x96, .f32⟩
  | .hbm, ⟨48, _⟩ => ⟨S1x96, .f32⟩
  | .hbm, ⟨49, _⟩ => ⟨S96, .f32⟩
  | .hbm, ⟨50, _⟩ => ⟨S1x96x96, .f32⟩
  | .hbm, ⟨51, _⟩ => ⟨S96x96, .f32⟩
  | .hbm, ⟨52, _⟩ => ⟨S50000x96, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x96, .f32⟩
  | .hbm, ⟨62, _⟩ => ⟨S_, .f32⟩
  | .hbm, ⟨63, _⟩ => ⟨S50000x96, .f32⟩
  | .hbm, ⟨64, _⟩ => ⟨S800000x1, .i32⟩
  | .hbm, ⟨65, _⟩ => ⟨S50000x96, .f32⟩
  | .hbm, ⟨66, _⟩ => ⟨S_, .f32⟩
  | .hbm, ⟨67, _⟩ => ⟨S50000x1, .f32⟩
  | .hbm, ⟨68, _⟩ => ⟨S50000x1, .i1⟩
  | .hbm, ⟨69, _⟩ => ⟨S50000x96, .f32⟩
  | .hbm, ⟨70, _⟩ => ⟨S50000x96, .f32⟩
  | .hbm, ⟨71, _⟩ => ⟨S_, .f32⟩
  | .hbm, ⟨72, _⟩ => ⟨S_, .f32⟩
  | .hbm, ⟨73, _⟩ => ⟨S50000x96, .i1⟩
  | .hbm, ⟨74, _⟩ => ⟨S50000x96, .f32⟩
  | .hbm, ⟨75, _⟩ => ⟨S50000x96, .f32⟩
  | .hbm, ⟨76, _⟩ => ⟨S1x96x96, .f32⟩
  | .hbm, ⟨77, _⟩ => ⟨S96x96, .f32⟩
  | .hbm, ⟨78, _⟩ => ⟨S1x96, .f32⟩
  | .hbm, ⟨79, _⟩ => ⟨S96, .f32⟩
  | .hbm, ⟨80, _⟩ => ⟨S1x96x96, .f32⟩
  | .hbm, ⟨81, _⟩ => ⟨S96x96, .f32⟩
  | .hbm, ⟨82, _⟩ => ⟨S50000x96, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x96, .f32⟩
  | .hbm, ⟨92, _⟩ => ⟨S_, .f32⟩
  | .hbm, ⟨93, _⟩ => ⟨S50000x96, .f32⟩
  | .hbm, ⟨94, _⟩ => ⟨S800000x1, .i32⟩
  | .hbm, ⟨95, _⟩ => ⟨S50000x96, .f32⟩
  | .hbm, ⟨96, _⟩ => ⟨S_, .f32⟩
  | .hbm, ⟨97, _⟩ => ⟨S50000x1, .f32⟩
  | .hbm, ⟨98, _⟩ => ⟨S50000x1, .i1⟩
  | .hbm, ⟨99, _⟩ => ⟨S50000x96, .f32⟩
  | .hbm, ⟨100, _⟩ => ⟨S50000x96, .f32⟩
  | .hbm, ⟨101, _⟩ => ⟨S_, .f32⟩
  | .hbm, ⟨102, _⟩ => ⟨S_, .f32⟩
  | .hbm, ⟨103, _⟩ => ⟨S50000x96, .i1⟩
  | .hbm, ⟨104, _⟩ => ⟨S50000x96, .f32⟩
  | .hbm, ⟨105, _⟩ => ⟨S50000x96, .f32⟩
  | .hbm, ⟨106, _⟩ => ⟨S_, .i32⟩
  | .hbm, ⟨107, _⟩ => ⟨S_, .f32⟩
  | .hbm, ⟨108, _⟩ => ⟨S96x128, .f32⟩
  | .hbm, ⟨109, _⟩ => ⟨S_, .i32⟩
  | .hbm, ⟨110, _⟩ => ⟨S_, .f32⟩
  | .hbm, ⟨111, _⟩ => ⟨S128, .f32⟩
  | .hbm, ⟨112, _⟩ => ⟨S1x96x96, .f32⟩
  | .hbm, ⟨113, _⟩ => ⟨S96x96, .f32⟩
  | .hbm, ⟨114, _⟩ => ⟨S1x96, .f32⟩
  | .hbm, ⟨115, _⟩ => ⟨S96, .f32⟩
  | .hbm, ⟨116, _⟩ => ⟨S1x96x96, .f32⟩
  | .hbm, ⟨117, _⟩ => ⟨S96x96, .f32⟩
  | .hbm, ⟨118, _⟩ => ⟨S50000x128, .f32⟩
  | .hbm, ⟨119, _⟩ => ⟨S50000x40, .f32⟩
  | .local _ .vmem, ⟨0, _⟩ => ⟨S10000x128, .f32⟩
  | .local _ .vmem, ⟨1, _⟩ => ⟨S10000x128, .f32⟩
  | .local _ .vmem, ⟨2, _⟩ => ⟨S128x96, .f32⟩
  | .local _ .vmem, ⟨3, _⟩ => ⟨S96, .f32⟩
  | .local _ .vmem, ⟨4, _⟩ => ⟨S10000x96, .f32⟩
  | .local _ .vmem, ⟨5, _⟩ => ⟨S10000x96, .f32⟩
  | .local _ .vmem, ⟨6, _⟩ => ⟨S10000x96, .f32⟩
  | .local _ .vmem, ⟨7, _⟩ => ⟨S10000x96, .f32⟩
  | .local _ .vmem, ⟨8, _⟩ => ⟨S10000x96, .f32⟩
  | .local _ .vmem, ⟨9, _⟩ => ⟨S10000x96, .f32⟩
  | .local _ .vmem, ⟨10, _⟩ => ⟨S96x96, .f32⟩
  | .local _ .vmem, ⟨11, _⟩ => ⟨S96, .f32⟩
  | .local _ .vmem, ⟨12, _⟩ => ⟨S96x96, .f32⟩
  | .local _ .vmem, ⟨13, _⟩ => ⟨S10000x96, .f32⟩
  | .local _ .vmem, ⟨14, _⟩ => ⟨S10000x96, .f32⟩
  | .local _ .vmem, ⟨15, _⟩ => ⟨S10000x96, .f32⟩
  | .local _ .vmem, ⟨16, _⟩ => ⟨S10000x96, .f32⟩
  | .local _ .vmem, ⟨17, _⟩ => ⟨S10000x96, .f32⟩
  | .local _ .vmem, ⟨18, _⟩ => ⟨S10000x96, .f32⟩
  | .local _ .vmem, ⟨19, _⟩ => ⟨S96x96, .f32⟩
  | .local _ .vmem, ⟨20, _⟩ => ⟨S96, .f32⟩
  | .local _ .vmem, ⟨21, _⟩ => ⟨S96x96, .f32⟩
  | .local _ .vmem, ⟨22, _⟩ => ⟨S10000x96, .f32⟩
  | .local _ .vmem, ⟨23, _⟩ => ⟨S10000x96, .f32⟩
  | .local _ .vmem, ⟨24, _⟩ => ⟨S10000x96, .f32⟩
  | .local _ .vmem, ⟨25, _⟩ => ⟨S10000x96, .f32⟩
  | .local _ .vmem, ⟨26, _⟩ => ⟨S10000x96, .f32⟩
  | .local _ .vmem, ⟨27, _⟩ => ⟨S10000x96, .f32⟩
  | .local _ .vmem, ⟨28, _⟩ => ⟨S96x96, .f32⟩
  | .local _ .vmem, ⟨29, _⟩ => ⟨S96, .f32⟩
  | .local _ .vmem, ⟨30, _⟩ => ⟨S96x96, .f32⟩
  | .local _ .vmem, ⟨31, _⟩ => ⟨S96x128, .f32⟩
  | .local _ .vmem, ⟨32, _⟩ => ⟨S128, .f32⟩
  | .local _ .vmem, ⟨33, _⟩ => ⟨S10000x128, .f32⟩
  | .local _ .vmem, ⟨34, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_15 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_v69 : Ref sig .tc := ⟨.hbm, 105, rfl⟩
abbrev main_c_16 : Ref sig .tc := ⟨.hbm, 106, rfl⟩
abbrev main_call3_v0 : Ref sig .tc := ⟨.hbm, 107, rfl⟩
abbrev main_v70 : Ref sig .tc := ⟨.hbm, 108, rfl⟩
abbrev main_c_17 : Ref sig .tc := ⟨.hbm, 109, rfl⟩
abbrev main_call4_v0 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg7_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem7_1 : DmaSem sig := 34

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S96x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S96x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  inb_S10000x128_S10000x128_0_0 : ∀ a, (![0, 0] : Fin 2 → Nat) a + S10000x128.size a ≤ S10000x128.size a
  h_S10000x128 : 0 < S10000x128.numel
  inb_S128x96_S128x96_0_0 : ∀ a, (![0, 0] : Fin 2 → Nat) a + S128x96.size a ≤ S128x96.size a
  h_S128x96 : 0 < S128x96.numel
  inb_S96_S96_0 : ∀ a, (![0] : Fin 1 → Nat) a + S96.size a ≤ S96.size a
  h_S96 : 0 < S96.numel
  shapeCasts_S96_S1x96 : S96.ShapeCasts S1x96
  broadcasts_S1x96_S10000x96 : S1x96.Broadcasts S10000x96
  inb_S10000x96_S10000x96_0_0 : ∀ a, (![0, 0] : Fin 2 → Nat) a + S10000x96.size a ≤ S10000x96.size a
  h_S10000x96 : 0 < S10000x96.numel
  bcast_S_S800000 : S_.BroadcastsInDim S800000 (![] : Fin 0 → Fin S800000.rank)
  bcast_S_S50000x96 : S_.BroadcastsInDim S50000x96 (![] : Fin 0 → Fin S50000x96.rank)
  bcast_S50000x1_S50000x96_0_1 : S50000x1.BroadcastsInDim S50000x96 (![0, 1] : Fin 2 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  shapeCasts_S10000x96_S10000x96 : S10000x96.ShapeCasts S10000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  shapeCasts_S96_S96 : S96.ShapeCasts S96
  slices_S3x96x96_S1x96x96_1_0_0 : S3x96x96.Slices ![1, 0, 0] S1x96x96
  slices_S3x96_S1x96_1_0 : S3x96.Slices ![1, 0] S1x96
  pads_S96x40_S96x128_000_0880 : S96x40.Pads (![0, 0] : Fin 2 → Nat) ![0, 88] ![0, 0] S96x128
  h_S_ : 0 < S_.numel
  pads_S40_S128_0880 : S40.Pads (![0] : Fin 1 → Nat) ![88] ![0] S128
  slices_S3x96x96_S1x96x96_2_0_0 : S3x96x96.Slices ![2, 0, 0] S1x96x96
  slices_S3x96_S1x96_2_0 : S3x96.Slices ![2, 0] S1x96
  inb_S96x128_S96x128_0_0 : ∀ a, (![0, 0] : Fin 2 → Nat) a + S96x128.size a ≤ S96x128.size a
  h_S96x128 : 0 < S96x128.numel
  shapeCasts_S96x128_S96x128 : S96x128.ShapeCasts S96x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S10000x128 : S1x128.Broadcasts S10000x128
  slices_S50000x128_S50000x40_0_0 : S50000x128.Slices ![0, 0] S50000x40
  scatter_S50000x1_S800000x1_S800000x1_1_0_0_1_wf : ScatterDims.WF S50000x1 S800000x1 S800000x1 [1] [0] [0] 1
  dot_S10000x128_S128x96_S10000x96_1_0_0_1_n_n_wf : DotDims.WF S10000x128 S128x96 S10000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S10000x96_S96x96_S10000x96_1_0_0_1_n_n_wf : DotDims.WF S10000x96 S96x96 S10000x96 [1] [0] [0] [1] [] []
  dot_S10000x96_S96x128_S10000x128_1_0_0_1_n_n_wf : DotDims.WF S10000x96 S96x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96.size a ≤ S96.size a
  hwx0_2 : ∀ i : grid0.Coords, EltTy.bits .f32 = 32 ∨ (Rect.block (s := S96) S96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x96.size a ≤ S50000x96.size a
  hwx0_3 : ∀ i : grid0.Coords, EltTy.bits .f32 = 32 ∨ (Rect.block (s := S50000x96) S10000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x96.size a ≤ S50000x96.size a
  hwx1_0 : ∀ i : grid1.Coords, EltTy.bits .f32 = 32 ∨ (Rect.block (s := S50000x96) S10000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x96.size a ≤ S50000x96.size a
  hwx1_1 : ∀ i : grid1.Coords, EltTy.bits .f32 = 32 ∨ (Rect.block (s := S50000x96) S10000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96.size a ≤ S96.size a
  hwx1_3 : ∀ i : grid1.Coords, EltTy.bits .f32 = 32 ∨ (Rect.block (s := S96) S96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x96.size a ≤ S50000x96.size a
  hwx1_5 : ∀ i : grid1.Coords, EltTy.bits .f32 = 32 ∨ (Rect.block (s := S50000x96) S10000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x96.size a ≤ S50000x96.size a
  hwx2_0 : ∀ i : grid2.Coords, EltTy.bits .f32 = 32 ∨ (Rect.block (s := S50000x96) S10000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x96.size a ≤ S50000x96.size a
  hwx2_1 : ∀ i : grid2.Coords, EltTy.bits .f32 = 32 ∨ (Rect.block (s := S50000x96) S10000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96.size a ≤ S96.size a
  hwx2_3 : ∀ i : grid2.Coords, EltTy.bits .f32 = 32 ∨ (Rect.block (s := S96) S96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x96.size a ≤ S96x96.size a
  hwx2_4 : ∀ i : grid2.Coords, EltTy.bits .f32 = 32 ∨ (Rect.block (s := S96x96) S96x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x96.size a ≤ S50000x96.size a
  hwx2_5 : ∀ i : grid2.Coords, EltTy.bits .f32 = 32 ∨ (Rect.block (s := S50000x96) S10000x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x96.size a ≤ S50000x96.size a
  hwx3_0 : ∀ i : grid3.Coords, EltTy.bits .f32 = 32 ∨ (Rect.block (s := S50000x96) S10000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x96.size a ≤ S50000x96.size a
  hwx3_1 : ∀ i : grid3.Coords, EltTy.bits .f32 = 32 ∨ (Rect.block (s := S50000x96) S10000x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x96.size a ≤ S96x96.size a
  hwx3_2 : ∀ i : grid3.Coords, EltTy.bits .f32 = 32 ∨ (Rect.block (s := S96x96) S96x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S96.size a ≤ S96.size a
  hwx3_3 : ∀ i : grid3.Coords, EltTy.bits .f32 = 32 ∨ (Rect.block (s := S96) S96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S96x96.size a ≤ S96x96.size a
  hwx3_4 : ∀ i : grid3.Coords, EltTy.bits .f32 = 32 ∨ (Rect.block (s := S96x96) S96x96.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S96x128.size a ≤ S96x128.size a
  hwx3_5 : ∀ i : grid3.Coords, EltTy.bits .f32 = 32 ∨ (Rect.block (s := S96x128) S96x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x128.size a ≤ S50000x128.size a
  hwx3_7 : ∀ i : grid3.Coords, EltTy.bits .f32 = 32 ∨ (Rect.block (s := S50000x128) S10000x128.size (cc3_transform_7 i) (hinb3_7 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S10000x128_S128x96_S10000x96_1_0_0_1_n_n : DotDims S10000x128 S128x96 S10000x96 where
  lhsContracting := [1]
  rhsContracting := [0]
  lhsNonContracting := [0]
  rhsNonContracting := [1]
  lhsBatch := []
  rhsBatch := []
  wf := dot_S10000x128_S128x96_S10000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S10000x96_S96x96_S10000x96_1_0_0_1_n_n : DotDims S10000x96 S96x96 S10000x96 where
  lhsContracting := [1]
  rhsContracting := [0]
  lhsNonContracting := [0]
  rhsNonContracting := [1]
  lhsBatch := []
  rhsBatch := []
  wf := dot_S10000x96_S96x96_S10000x96_1_0_0_1_n_n_wf
def dot_S10000x96_S96x128_S10000x128_1_0_0_1_n_n : DotDims S10000x96 S96x128 S10000x128 where
  lhsContracting := [1]
  rhsContracting := [0]
  lhsNonContracting := [0]
  rhsNonContracting := [1]
  lhsBatch := []
  rhsBatch := []
  wf := dot_S10000x96_S96x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S10000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S10000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S10000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S10000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S10000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S96x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S10000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v69) S10000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S10000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S96x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S96x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70) S96x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v71) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v78) S10000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S3x96x96 : Shape := ⟨3, ![3, 96, 96]⟩
abbrev S3x96 : Shape := ⟨2, ![3, 96]⟩
abbrev S96x40 : Shape := ⟨2, ![96, 40]⟩
abbrev S40 : Shape := ⟨1, ![40]⟩
abbrev S1x800000 : Shape := ⟨2, ![1, 800000]⟩
abbrev S800000 : Shape := ⟨1, ![800000]⟩
abbrev S50000x96 : Shape := ⟨2, ![50000, 96]⟩
abbrev S1x96 : Shape := ⟨2, ![1, 96]⟩
abbrev S_ : Shape := ⟨0, ![]⟩
abbrev S1x96x96 : Shape := ⟨3, ![1, 96, 96]⟩
abbrev S96x96 : Shape := ⟨2, ![96, 96]⟩
abbrev S800000x1 : Shape := ⟨2, ![800000, 1]⟩
abbrev S800000x96 : Shape := ⟨2, ![800000, 96]⟩
abbrev S50000x1 : Shape := ⟨2, ![50000, 1]⟩
abbrev S50000x40 : Shape := ⟨2, ![50000, 40]⟩
abbrev S1x40 : Shape := ⟨2, ![1, 40]⟩

abbrev nBuf : Space → Nat
  | .hbm => 165
  | .vmem => 0
  | .smem => 0
  | _ => 0

abbrev hbmTy0_0 (i : Nat) : BufTy := match i % 128 with
  | 0 => ⟨S50000x128, .f32⟩
  | 1 => ⟨S2x800000, .i32⟩
  | 2 => ⟨S128x96, .f32⟩
  | 3 => ⟨S96, .f32⟩
  | 4 => ⟨S3x96x96, .f32⟩
  | 5 => ⟨S3x96, .f32⟩
  | 6 => ⟨S3x96x96, .f32⟩
  | 7 => ⟨S96x40, .f32⟩
  | 8 => ⟨S40, .f32⟩
  | 9 => ⟨S1x800000, .i32⟩
  | 10 => ⟨S800000, .i32⟩
  | 11 => ⟨S1x800000, .i32⟩
  | 12 => ⟨S800000, .i32⟩
  | 13 => ⟨S50000x96, .f32⟩
  | 14 => ⟨S1x96, .f32⟩
  | 15 => ⟨S50000x96, .f32⟩
  | 16 => ⟨S50000x96, .f32⟩
  | 17 => ⟨S_, .f32⟩
  | 18 => ⟨S50000x96, .f32⟩
  | 19 => ⟨S50000x96, .f32⟩
  | 20 => ⟨S1x96x96, .f32⟩
  | 21 => ⟨S96x96, .f32⟩
  | 22 => ⟨S1x96, .f32⟩
  | 23 => ⟨S96, .f32⟩
  | 24 => ⟨S1x96x96, .f32⟩
  | 25 => ⟨S96x96, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x96, .f32⟩
  | 35 => ⟨S_, .f32⟩
  | 36 => ⟨S50000x96, .f32⟩
  | 37 => ⟨S800000x1, .i32⟩
  | 38 => ⟨S50000x96, .f32⟩
  | 39 => ⟨S_, .f32⟩
  | 40 => ⟨S800000x1, .f32⟩
  | 41 => ⟨S_, .f32⟩
  | 42 => ⟨S50000x1, .f32⟩
  | 43 => ⟨S800000x1, .i32⟩
  | 44 => ⟨S50000x1, .f32⟩
  | 45 => ⟨S_, .f32⟩
  | 46 => ⟨S50000x1, .f32⟩
  | 47 => ⟨S50000x1, .i1⟩
  | 48 => ⟨S_, .f32⟩
  | 49 => ⟨S50000x1, .f32⟩
  | 50 => ⟨S50000x1, .f32⟩
  | 51 => ⟨S50000x96, .f32⟩
  | 52 => ⟨S50000x96, .f32⟩
  | 53 => ⟨S_, .f32⟩
  | 54 => ⟨S_, .f32⟩
  | 55 => ⟨S50000x96, .i1⟩
  | 56 => ⟨S50000x96, .f32⟩
  | 57 => ⟨S50000x96, .f32⟩
  | 58 => ⟨S50000x96, .f32⟩
  | 59 => ⟨S1x96, .f32⟩
  | 60 => ⟨S50000x96, .f32⟩
  | 61 => ⟨S50000x96, .f32⟩
  | 62 => ⟨S50000x96, .f32⟩
  | 63 => ⟨S50000x96, .f32⟩
  | 64 => ⟨S_, .f32⟩
  | 65 => ⟨S50000x96, .f32⟩
  | 66 => ⟨S50000x96, .f32⟩
  | 67 => ⟨S1x96x96, .f32⟩
  | 68 => ⟨S96x96, .f32⟩
  | 69 => ⟨S1x96, .f32⟩
  | 70 => ⟨S96, .f32⟩
  | 71 => ⟨S1x96x96, .f32⟩
  | 72 => ⟨S96x96, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x96, .f32⟩
  | 82 => ⟨S_, .f32⟩
  | 83 => ⟨S50000x96, .f32⟩
  | 84 => ⟨S800000x1, .i32⟩
  | 85 => ⟨S50000x96, .f32⟩
  | 86 => ⟨S_, .f32⟩
  | 87 => ⟨S800000x1, .f32⟩
  | 88 => ⟨S_, .f32⟩
  | 89 => ⟨S50000x1, .f32⟩
  | 90 => ⟨S800000x1, .i32⟩
  | 91 => ⟨S50000x1, .f32⟩
  | 92 => ⟨S_, .f32⟩
  | 93 => ⟨S50000x1, .f32⟩
  | 94 => ⟨S50000x1, .i1⟩
  | 95 => ⟨S_, .f32⟩
  | 96 => ⟨S50000x1, .f32⟩
  | 97 => ⟨S50000x1, .f32⟩
  | 98 => ⟨S50000x96, .f32⟩
  | 99 => ⟨S50000x96, .f32⟩
  | 100 => ⟨S_, .f32⟩
  | 101 => ⟨S_, .f32⟩
  | 102 => ⟨S50000x96, .i1⟩
  | 103 => ⟨S50000x96, .f32⟩
  | 104 => ⟨S50000x96, .f32⟩
  | 105 => ⟨S50000x96, .f32⟩
  | 106 => ⟨S1x96, .f32⟩
  | 107 => ⟨S50000x96, .f32⟩
  | 108 => ⟨S50000x96, .f32⟩
  | 109 => ⟨S50000x96, .f32⟩
  | 110 => ⟨S50000x96, .f32⟩
  | 111 => ⟨S_, .f32⟩
  | 112 => ⟨S50000x96, .f32⟩
  | 113 => ⟨S50000x96, .f32⟩
  | 114 => ⟨S1x96x96, .f32⟩
  | 115 => ⟨S96x96, .f32⟩
  | 116 => ⟨S1x96, .f32⟩
  | 117 => ⟨S96, .f32⟩
  | 118 => ⟨S1x96x96, .f32⟩
  | 119 => ⟨S96x96, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x96, .f32⟩
  | 1 => ⟨S_, .f32⟩
  | 2 => ⟨S50000x96, .f32⟩
  | 3 => ⟨S800000x1, .i32⟩
  | 4 => ⟨S50000x96, .f32⟩
  | 5 => ⟨S_, .f32⟩
  | 6 => ⟨S800000x1, .f32⟩
  | 7 => ⟨S_, .f32⟩
  | 8 => ⟨S50000x1, .f32⟩
  | 9 => ⟨S800000x1, .i32⟩
  | 10 => ⟨S50000x1, .f32⟩
  | 11 => ⟨S_, .f32⟩
  | 12 => ⟨S50000x1, .f32⟩
  | 13 => ⟨S50000x1, .i1⟩
  | 14 => ⟨S_, .f32⟩
  | 15 => ⟨S50000x1, .f32⟩
  | 16 => ⟨S50000x1, .f32⟩
  | 17 => ⟨S50000x96, .f32⟩
  | 18 => ⟨S50000x96, .f32⟩
  | 19 => ⟨S_, .f32⟩
  | 20 => ⟨S_, .f32⟩
  | 21 => ⟨S50000x96, .i1⟩
  | 22 => ⟨S50000x96, .f32⟩
  | 23 => ⟨S50000x96, .f32⟩
  | 24 => ⟨S50000x96, .f32⟩
  | 25 => ⟨S1x96, .f32⟩
  | 26 => ⟨S50000x96, .f32⟩
  | 27 => ⟨S50000x96, .f32⟩
  | 28 => ⟨S50000x96, .f32⟩
  | 29 => ⟨S50000x96, .f32⟩
  | 30 => ⟨S_, .f32⟩
  | 31 => ⟨S50000x96, .f32⟩
  | 32 => ⟨S50000x96, .f32⟩
  | 33 => ⟨S50000x40, .f32⟩
  | 34 => ⟨S1x40, .f32⟩
  | 35 => ⟨S50000x40, .f32⟩
  | 36 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call2_cst : Ref sig .tc := ⟨.hbm, 64, rfl⟩
abbrev main_call2_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_6 : Ref sig .tc := ⟨.hbm, 73, rfl⟩
abbrev main_v49 : Ref sig .tc := ⟨.hbm, 74, rfl⟩
abbrev main_v50 : Ref sig .tc := ⟨.hbm, 75, rfl⟩
abbrev main_c_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_8 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_cst_10 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_13 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_call4_cst : Ref sig .tc := ⟨.hbm, 111, rfl⟩
abbrev main_call4_v0 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_14 : Ref sig .tc := ⟨.hbm, 120, rfl⟩
abbrev main_v83 : Ref sig .tc := ⟨.hbm, 121, rfl⟩
abbrev main_v84 : Ref sig .tc := ⟨.hbm, 122, rfl⟩
abbrev main_c_15 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_16 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_17 : Ref sig .tc := ⟨.hbm, 133, rfl⟩
abbrev main_v93 : Ref sig .tc := ⟨.hbm, 134, rfl⟩
abbrev main_cst_18 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_19 : Ref sig .tc := ⟨.hbm, 139, rfl⟩
abbrev main_v97 : Ref sig .tc := ⟨.hbm, 140, rfl⟩
abbrev main_v98 : Ref sig .tc := ⟨.hbm, 141, rfl⟩
abbrev main_cst_20 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_21 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_call6_cst : Ref sig .tc := ⟨.hbm, 158, rfl⟩
abbrev main_call6_v0 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x96_S50000x96_1_0_0_1_n_n_wf : DotDims.WF S50000x128 S128x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000x1_S800000x1_S800000x1_1_0_0_1_wf : ScatterDims.WF S50000x1 S800000x1 S800000x1 [1] [0] [0] 1
  dot_S50000x96_S96x96_S50000x96_1_0_0_1_n_n_wf : DotDims.WF S50000x96 S96x96 S50000x96 [1] [0] [0] [1] [] []
  dot_S50000x96_S96x40_S50000x40_1_0_0_1_n_n_wf : DotDims.WF S50000x96 S96x40 S50000x40 [1] [0] [0] [1] [] []

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf

class Facts : Prop extends Facts₀ where

variable [Facts]
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibMatProd.lean ====
/-
  The product of an M×K and a K×N array of extended reals as ONE function of the two arrays: entry (i, q) is the sum over
  k of l(i, k) · r(k, q). A host dot product with plain matrix-product dimension numbers, and a matrix-unit product into
  a zero accumulator, are that function at the ideal instance; and an entry of the product depends only on row i of the
  left operand and column q of the right one, so the product of a block of rows with the right operand is that block of
  rows of the whole product.
-/
import proofs.«109989_j5858335391843_2_alg».proof.Proof.LibDotPlain

noncomputable section

open scoped BigOperators

namespace Idealize.ShloMosaic.MatProd

open Idealize.ShloMosaic Idealize.ShloMosaic.ValueIdx Idealize.ShloMosaic.DotPlain

/-- Entry (i, q) of the product: the sum over k of l(i, k) · r(k, q). -/
def matProd {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

variable {M K N : Nat} {d : DotDims ⟨2, ![M, K]⟩ ⟨2, ![K, N]⟩ ⟨2, ![M, N]⟩}

/-- A host dot product with plain dimension numbers is the product. -/
theorem dotGeneral_eq (h : IsPlain d) (prec : Option ContractPrecision) {φ₁ φ₂ : FTy}
    (l : FVec Ideal ⟨2, ![M, K]⟩ φ₁) (r : FVec Ideal ⟨2, ![K, N]⟩ φ₂) :
    Host.dotGeneral d prec l r = matProd l r :=
  funext fun j => DotPlain.dotGeneral_apply h prec l r j

/-- A matrix-unit product into a zero accumulator is the product, at an entry. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = matProd l r j :=
  DotPlain.matmul_zero_apply h prec l r j

/-- An entry of a product of a block of rows (and a copy of the right operand) is the entry of the whole product whose
    row the block's row is: the sums agree term by term. -/
theorem matProd_of_rows {B : Nat} (lb : (⟨2, ![B, K]⟩ : Shape).Idx → EReal) (rb : (⟨2, ![K, N]⟩ : Shape).Idx → EReal)
    (l : (⟨2, ![M, K]⟩ : Shape).Idx → EReal) (r : (⟨2, ![K, N]⟩ : Shape).Idx → EReal)
    (p : Fin B) (q : Fin N) (i : Fin M)
    (hl : ∀ k : Fin K, lb (ix2 p k) = l (ix2 i k)) (hr : ∀ k : Fin K, rb (ix2 k q) = r (ix2 k q)) :
    matProd lb rb (ix2 p q) = matProd l r (ix2 i q) :=
  Finset.sum_congr rfl fun k _ => by
    show lb (ix2 p k) * rb (ix2 k q) = l (ix2 i k) * r (ix2 k q)
    rw [hl k, hr k]

end Idealize.ShloMosaic.MatProd

end
-- ==== Proof.Spec.lean ====
/-
  Three row-wise layers over arrays of extended reals, each as ONE function of whole arrays, entry by entry.

  dense  x w b        entry (i, j) = max (∑ k, x(i,k)·w(k,j) + b(j)) 0            a linear layer with a rectifier
  sage   a h wl bl wr entry (i, j) = max ((∑ k, a(i,k)·wl(k,j) + bl(j)) + ∑ k, h(i,k)·wr(k,j)) 0
                                                                                   a neighbourhood-mean layer: the
                                                                                   aggregated rows through wl with a bias,
                                                                                   the node's own row through wr
  affine h w b        entry (i, j) = ∑ k, h(i,k)·w(k,j) + b(j)                     a linear read-out

  Entry (i, j) of each uses row i of its row operands only, so a block of consecutive rows of the result is the same
  layer applied to that block of rows (the `_of_rows` lemmas). No finiteness is used anywhere: the sums are taken as
  they stand on the extended reals, in the same grouping on both sides.
-/
import proofs.«109989_j5858335391843_2_alg».proof.Proof.LibMatProd

noncomputable section

open scoped BigOperators

namespace Cert.SageSpec

open Idealize.ShloMosaic Idealize.ShloMosaic.ValueIdx Idealize.ShloMosaic.MatProd

variable {M K N : Nat}

/-- The float zero both programs write, kept as its word. -/
abbrev zeroWord : EReal := Ideal.ofBits .f32 0x00000000#32

/-- A linear layer with bias and rectifier. -/
def dense (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (matProd x w i + b (ix1 (i 1))) zeroWord

/-- The neighbourhood-mean layer: aggregated rows through `wl` plus bias, plus own rows through `wr`, rectified. -/
def sage (a h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal :=
  fun i => max ((matProd a wl i + bl (ix1 (i 1))) + matProd h wr i) zeroWord

/-- The linear read-out. -/
def affine (h : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => matProd h w i + b (ix1 (i 1))

theorem dense_apply (x : (⟨2, ![M, K]⟩ : Shape).Idx → EReal) (w : (⟨2, ![K, N]⟩ : Shape).Idx → EReal)
    (b : (⟨1, ![N]⟩ : Shape).Idx → EReal) (p : Fin M) (q : Fin N) :
    dense x w b (ix2 p q) = max (matProd x w (ix2 p q) + b (ix1 q)) zeroWord := rfl

theorem sage_apply (a h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sage a h wl bl wr (ix2 p q)
      = max ((matProd a wl (ix2 p q) + bl (ix1 q)) + matProd h wr (ix2 p q)) zeroWord := rfl

theorem affine_apply (h : (⟨2, ![M, K]⟩ : Shape).Idx → EReal) (w : (⟨2, ![K, N]⟩ : Shape).Idx → EReal)
    (b : (⟨1, ![N]⟩ : Shape).Idx → EReal) (p : Fin M) (q : Fin N) :
    affine h w b (ix2 p q) = matProd h w (ix2 p q) + b (ix1 q) := rfl

variable {B : Nat}

/-- A block of rows of the dense layer is the dense layer of that block of rows. -/
theorem dense_of_rows (xb : (⟨2, ![B, K]⟩ : Shape).Idx → EReal) (x : (⟨2, ![M, K]⟩ : Shape).Idx → EReal)
    (w : (⟨2, ![K, N]⟩ : Shape).Idx → EReal) (b : (⟨1, ![N]⟩ : Shape).Idx → EReal) (p : Fin B) (i : Fin M) (q : Fin N)
    (hx : ∀ k : Fin K, xb (ix2 p k) = x (ix2 i k)) :
    dense xb w b (ix2 p q) = dense x w b (ix2 i q) := by
  rw [dense_apply, dense_apply, matProd_of_rows xb w x w p q i hx (fun _ => rfl)]

/-- A block of rows of the neighbourhood-mean layer is that layer of the two blocks of rows. -/
theorem sage_of_rows (ab hb : (⟨2, ![B, K]⟩ : Shape).Idx → EReal) (a h : (⟨2, ![M, K]⟩ : Shape).Idx → EReal)
    (wl : (⟨2, ![K, N]⟩ : Shape).Idx → EReal) (bl : (⟨1, ![N]⟩ : Shape).Idx → EReal)
    (wr : (⟨2, ![K, N]⟩ : Shape).Idx → EReal) (p : Fin B) (i : Fin M) (q : Fin N)
    (ha : ∀ k : Fin K, ab (ix2 p k) = a (ix2 i k)) (hh : ∀ k : Fin K, hb (ix2 p k) = h (ix2 i k)) :
    sage ab hb wl bl wr (ix2 p q) = sage a h wl bl wr (ix2 i q) := by
  rw [sage_apply, sage_apply, matProd_of_rows ab wl a wl p q i ha (fun _ => rfl),
    matProd_of_rows hb wr h wr p q i hh (fun _ => rfl)]

/-- A block of rows of the read-out is the read-out of that block of rows. -/
theorem affine_of_rows {L : Nat} (hb : (⟨2, ![B, K]⟩ : Shape).Idx → EReal) (h : (⟨2, ![M, K]⟩ : Shape).Idx → EReal)
    (w : (⟨2, ![K, L]⟩ : Shape).Idx → EReal) (b : (⟨1, ![L]⟩ : Shape).Idx → EReal) (p : Fin B) (i : Fin M) (q : Fin L)
    (hh : ∀ k : Fin K, hb (ix2 p k) = h (ix2 i k)) :
    affine hb w b (ix2 p q) = affine h w b (ix2 i q) := by
  rw [affine_apply, affine_apply, matProd_of_rows hb w h w p q i hh (fun _ => rfl)]

/-- The read-out through weights and a bias that agree with narrower ones on the first `L'` columns is, on those
    columns, the read-out through the narrower ones (columns added to the right of a weight matrix do not touch the
    columns that were there). -/
theorem affine_of_cols {L L' : Nat} (h : (⟨2, ![M, K]⟩ : Shape).Idx → EReal)
    (w : (⟨2, ![K, L]⟩ : Shape).Idx → EReal) (b : (⟨1, ![L]⟩ : Shape).Idx → EReal)
    (w' : (⟨2, ![K, L']⟩ : Shape).Idx → EReal) (b' : (⟨1, ![L']⟩ : Shape).Idx → EReal)
    (p : Fin M) (q : Fin L) (q' : Fin L')
    (hw : ∀ k : Fin K, w (ix2 k q) = w' (ix2 k q')) (hb : b (ix1 q) = b' (ix1 q')) :
    affine h w b (ix2 p q) = affine h w' b' (ix2 p q') := by
  rw [affine_apply, affine_apply, hb]
  refine congrArg (· + b' (ix1 q')) (Finset.sum_congr rfl fun k _ => ?_)
  show h (ix2 p k) * w (ix2 k q) = h (ix2 p k) * w' (ix2 k q')
  rw [hw k]

end Cert.SageSpec

end
-- ==== Proof.HostSpec.lean ====
/-
  The parts of the computation that both programs carry out with the same whole-array operations, named once.

  From the edge list (a [2, E] array of node numbers: row 0 the source of each edge, row 1 its target) both programs
  take the two rows, count the edges arriving at each node, and from a node-feature array h form the neighbourhood
  mean: gather the source rows (a negative node number counted from the end), add them up at the targets, divide by
  the count floored at one, and put zero where no edge arrives. They also cut the three layers' weight matrices and
  bias vectors out of the stacked parameters. These operations are never opened here: the two programs agree on them
  as written, so the proof only needs them to be ONE function of their operands.

  The whole result is then: a dense rectified layer of the node features, three neighbourhood-mean layers, and a linear
  read-out (Spec.lean has the three layer functions).
-/
import proofs.«109989_j5858335391843_2_alg».proof.KernelIdeal
import proofs.«109989_j5858335391843_2_alg».proof.Proof.Spec

noncomputable section

namespace Cert.SageHost

open Idealize.ShloMosaic Cert.KernelIdeal Cert.SageSpec

variable [Cert.KernelIdeal.Facts]

open Cert.KernelIdeal.Facts₀ Cert.KernelIdeal.Facts

/-- The source node of each edge. -/
def srcOf (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- The target node of each edge. -/
def dstOf (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The number of edges arriving at each node, as a float column. -/
def cntOf (ei : (⟨S2x800000, .i32⟩ : BufTy).Contents (Elt Ideal)) : (⟨S50000x1, .f32⟩ : BufTy).Contents (Elt Ideal) :=
  Host.scatterAdd scatter_S50000x1_S800000x1_S800000x1_1_0_0_1
    (broadcastInDim S50000x1 ![] bcast_S_S50000x1 (constant (F := Ideal) S_ .f32 0x00000000#32))
    (broadcastInDim S800000x1 ![0] bcast_S800000_S800000x1_0 (dstOf ei))
    (broadcastInDim S800000x1 ![] bcast_S_S800000x1 (constant (F := Ideal) S_ .f32 0x3F800000#32))

/-- The source node numbers as the gather reads them: a negative number counted from the end, laid out as a column. -/
def srcCol (ei : (⟨S2x800000, .i32⟩ : BufTy).Contents (Elt Ideal)) : (⟨S800000x1, .i32⟩ : BufTy).Contents (Elt Ideal) :=
  broadcastInDim S800000x1 ![0] bcast_S800000_S800000x1_0
    (select (cmpi .slt (srcOf ei) (broadcastInDim S800000 ![] bcast_S_S800000 (constantI S_ 32 0#32)))
      (addi (srcOf ei) (broadcastInDim S800000 ![] bcast_S_S800000 (constantI S_ 32 50000#32))) (srcOf ei))

/-- The neighbourhood mean of the node features `h`: zero where no edge arrives. -/
def meanOf (ei : (⟨S2x800000, .i32⟩ : BufTy).Contents (Elt Ideal)) (h : (⟨S50000x96, .f32⟩ : BufTy).Contents (Elt Ideal)) :
    (⟨S50000x96, .f32⟩ : BufTy).Contents (Elt Ideal) :=
  select
    (broadcastInDim S50000x96 ![0, 1] bcast_S50000x1_S50000x96_0_1
      (cmpf .ogt (cntOf ei) (broadcastInDim S50000x1 ![] bcast_S_S50000x1 (constant (F := Ideal) S_ .f32 0x00000000#32))))
    (Host.divf
      (Host.scatterAdd scatter_S50000x96_S800000x1_S800000x96_1_0_0_1
        (broadcastInDim S50000x96 ![] bcast_S_S50000x96 (constant (F := Ideal) S_ .f32 0x00000000#32))
        (broadcastInDim S800000x1 ![0] bcast_S800000_S800000x1_0 (dstOf ei))
        (Host.gather gather_S50000x96_S800000x1_S800000x96_1_0_n_n_0_1_196 h (srcCol ei)))
      (broadcastInDim S50000x96 ![0, 1] bcast_S50000x1_S50000x96_0_1
        (maximumf (cntOf ei) (broadcastInDim S50000x1 ![] bcast_S_S50000x1 (constant (F := Ideal) S_ .f32 0x3F800000#32)))))
    (broadcastInDim S50000x96 ![] bcast_S_S50000x96 (id (constant (F := Ideal) S_ .f32 0x00000000#32)))

/-- Layer 0's weight matrix out of a stack of three. -/
def wOf0 (a : (⟨S3x96x96, .f32⟩ : BufTy).Contents (Elt Ideal)) : (⟨S96x96, .f32⟩ : BufTy).Contents (Elt Ideal) :=
  shapeCast _ (extractStridedSlice S1x96x96 ![0, 0, 0] a slices_S3x96x96_S1x96x96_0_0_0) shapeCasts_S1x96x96_S96x96
/-- Layer 1's weight matrix out of a stack of three. -/
def wOf1 (a : (⟨S3x96x96, .f32⟩ : BufTy).Contents (Elt Ideal)) : (⟨S96x96, .f32⟩ : BufTy).Contents (Elt Ideal) :=
  shapeCast _ (extractStridedSlice S1x96x96 ![1, 0, 0] a slices_S3x96x96_S1x96x96_1_0_0) shapeCasts_S1x96x96_S96x96
/-- Layer 2's weight matrix out of a stack of three. -/
def wOf2 (a : (⟨S3x96x96, .f32⟩ : BufTy).Contents (Elt Ideal)) : (⟨S96x96, .f32⟩ : BufTy).Contents (Elt Ideal) :=
  shapeCast _ (extractStridedSlice S1x96x96 ![2, 0, 0] a slices_S3x96x96_S1x96x96_2_0_0) shapeCasts_S1x96x96_S96x96
/-- Layer 0's bias vector out of a stack of three. -/
def bOf0 (a : (⟨S3x96, .f32⟩ : BufTy).Contents (Elt Ideal)) : (⟨S96, .f32⟩ : BufTy).Contents (Elt Ideal) :=
  shapeCast _ (extractStridedSlice S1x96 ![0, 0] a slices_S3x96_S1x96_0_0) shapeCasts_S1x96_S96
/-- Layer 1's bias vector out of a stack of three. -/
def bOf1 (a : (⟨S3x96, .f32⟩ : BufTy).Contents (Elt Ideal)) : (⟨S96, .f32⟩ : BufTy).Contents (Elt Ideal) :=
  shapeCast _ (extractStridedSlice S1x96 ![1, 0] a slices_S3x96_S1x96_1_0) shapeCasts_S1x96_S96
/-- Layer 2's bias vector out of a stack of three. -/
def bOf2 (a : (⟨S3x96, .f32⟩ : BufTy).Contents (Elt Ideal)) : (⟨S96, .f32⟩ : BufTy).Contents (Elt Ideal) :=
  shapeCast _ (extractStridedSlice S1x96 ![2, 0] a slices_S3x96_S1x96_2_0) shapeCasts_S1x96_S96

/-- One neighbourhood-mean layer on the node features `h`, with its weights given. -/
def layer (ei : (⟨S2x800000, .i32⟩ : BufTy).Contents (Elt Ideal)) (h : (⟨S50000x96, .f32⟩ : BufTy).Contents (Elt Ideal))
    (wl : (⟨S96x96, .f32⟩ : BufTy).Contents (Elt Ideal)) (bl : (⟨S96, .f32⟩ : BufTy).Contents (Elt Ideal))
    (wr : (⟨S96x96, .f32⟩ : BufTy).Contents (Elt Ideal)) : (⟨S50000x96, .f32⟩ : BufTy).Contents (Elt Ideal) :=
  sage (meanOf ei h) h wl bl wr

/-- The node features after the encoder and the three layers. -/
def hidden (x : (⟨S50000x128, .f32⟩ : BufTy).Contents (Elt Ideal)) (ei : (⟨S2x800000, .i32⟩ : BufTy).Contents (Elt Ideal))
    (ew : (⟨S128x96, .f32⟩ : BufTy).Contents (Elt Ideal)) (eb : (⟨S96, .f32⟩ : BufTy).Contents (Elt Ideal))
    (lw : (⟨S3x96x96, .f32⟩ : BufTy).Contents (Elt Ideal)) (lb : (⟨S3x96, .f32⟩ : BufTy).Contents (Elt Ideal))
    (rw : (⟨S3x96x96, .f32⟩ : BufTy).Contents (Elt Ideal)) : (⟨S50000x96, .f32⟩ : BufTy).Contents (Elt Ideal) :=
  layer ei (layer ei (layer ei (dense x ew eb) (wOf0 lw) (bOf0 lb) (wOf0 rw)) (wOf1 lw) (bOf1 lb) (wOf1 rw))
    (wOf2 lw) (bOf2 lb) (wOf2 rw)

/-- THE RESULT both programs compute: the read-out of the hidden features. -/
def result (x : (⟨S50000x128, .f32⟩ : BufTy).Contents (Elt Ideal)) (ei : (⟨S2x800000, .i32⟩ : BufTy).Contents (Elt Ideal))
    (ew : (⟨S128x96, .f32⟩ : BufTy).Contents (Elt Ideal)) (eb : (⟨S96, .f32⟩ : BufTy).Contents (Elt Ideal))
    (lw : (⟨S3x96x96, .f32⟩ : BufTy).Contents (Elt Ideal)) (lb : (⟨S3x96, .f32⟩ : BufTy).Contents (Elt Ideal))
    (rw : (⟨S3x96x96, .f32⟩ : BufTy).Contents (Elt Ideal)) (dw : (⟨S96x40, .f32⟩ : BufTy).Contents (Elt Ideal))
    (db : (⟨S40, .f32⟩ : BufTy).Contents (Elt Ideal)) : (⟨S50000x40, .f32⟩ : BufTy).Contents (Elt Ideal) :=
  affine (hidden x ei ew eb lw lb rw) dw db

end Cert.SageHost

end
-- ==== Proof.LibActivation.lean ====
/-
  Bias and activation, entry by entry, as functions of whole arrays.

  A hidden layer adds a bias to every row of an array and takes the maximum with zero; the output layer adds a bias and
  applies the logistic function 1 / (1 + e^(-x)). The bias comes either as a vector of length n or as an array of one
  row [1, n]; entry (i, d) of the result uses the bias entry d either way, so the one-row form over a vector laid out as
  a row is the vector form. Zero is kept as the float word it is written with in both programs.
-/
import Idealize.ShloMosaic.PureOps.Ideal
import Idealize.ShloMosaic.Lib.ValueIdx
import Idealize.ShloMosaic.Lib.ValueLayout
import Idealize.ShloMosaic.Lib.Pipeline.Value

noncomputable section

namespace Cert.Activation

open Idealize.ShloMosaic Idealize.ShloMosaic.ValueIdx

variable {a n : Nat}

/-- Bias row added to every row, then the maximum with zero. -/
def rectifiedRow (A : (⟨2, ![a, n]⟩ : Shape).Idx → EReal) (b : (⟨2, ![1, n]⟩ : Shape).Idx → EReal) :
    (⟨2, ![a, n]⟩ : Shape).Idx → EReal :=
  fun i => max (A i + b (ix2 (0 : Fin 1) (i 1))) (Ideal.ofBits .f32 0x00000000#32)

theorem rectifiedRow_apply (A : (⟨2, ![a, n]⟩ : Shape).Idx → EReal) (b : (⟨2, ![1, n]⟩ : Shape).Idx → EReal)
    (p : Fin a) (d : Fin n) :
    rectifiedRow A b (ix2 p d) = max (A (ix2 p d) + b (ix2 (0 : Fin 1) d)) (Ideal.ofBits .f32 0x00000000#32) := rfl

/-- Bias vector added to every row, then the maximum with zero. -/
def rectified (A : (⟨2, ![a, n]⟩ : Shape).Idx → EReal) (b : (⟨1, ![n]⟩ : Shape).Idx → EReal) :
    (⟨2, ![a, n]⟩ : Shape).Idx → EReal :=
  fun i => max (A i + b (ix1 (i 1))) (Ideal.ofBits .f32 0x00000000#32)

theorem rectified_apply (A : (⟨2, ![a, n]⟩ : Shape).Idx → EReal) (b : (⟨1, ![n]⟩ : Shape).Idx → EReal)
    (p : Fin a) (d : Fin n) :
    rectified A b (ix2 p d) = max (A (ix2 p d) + b (ix1 d)) (Ideal.ofBits .f32 0x00000000#32) := rfl

/-- Bias row added to every row, then the logistic function. -/
def logisticRow (A : (⟨2, ![a, n]⟩ : Shape).Idx → EReal) (b : (⟨2, ![1, n]⟩ : Shape).Idx → EReal) :
    (⟨2, ![a, n]⟩ : Shape).Idx → EReal :=
  fun i => Ideal.logistic (A i + b (ix2 (0 : Fin 1) (i 1)))

theorem logisticRow_apply (A : (⟨2, ![a, n]⟩ : Shape).Idx → EReal) (b : (⟨2, ![1, n]⟩ : Shape).Idx → EReal)
    (p : Fin a) (d : Fin n) :
    logisticRow A b (ix2 p d) = Ideal.logistic (A (ix2 p d) + b (ix2 (0 : Fin 1) d)) := rfl

/-- Bias vector added to every row, then the logistic function. -/
def logisticOf (A : (⟨2, ![a, n]⟩ : Shape).Idx → EReal) (b : (⟨1, ![n]⟩ : Shape).Idx → EReal) :
    (⟨2, ![a, n]⟩ : Shape).Idx → EReal :=
  fun i => Ideal.logistic (A i + b (ix1 (i 1)))

theorem logisticOf_apply (A : (⟨2, ![a, n]⟩ : Shape).Idx → EReal) (b : (⟨1, ![n]⟩ : Shape).Idx → EReal)
    (p : Fin a) (d : Fin n) :
    logisticOf A b (ix2 p d) = Ideal.logistic (A (ix2 p d) + b (ix1 d)) := rfl

/-- A bias vector laid out as one row gives the vector form of the rectified array. -/
theorem rectifiedRow_of_vector (A : (⟨2, ![a, n]⟩ : Shape).Idx → EReal) (b : (⟨1, ![n]⟩ : Shape).Idx → EReal)
    (h : (⟨1, ![n]⟩ : Shape).ShapeCasts ⟨2, ![1, n]⟩) :
    rectifiedRow A (shapeCast ⟨2, ![1, n]⟩ b h) = rectified A b := by
  funext i
  obtain ⟨p, d, rfl⟩ : ∃ (p : Fin a) (d : Fin n), i = ix2 p d := ⟨i 0, i 1, eq_ix2 i⟩
  rw [rectifiedRow_apply, rectified_apply, shapeCast_a_1a_apply]

/-- A bias vector laid out as one row gives the vector form of the logistic array. -/
theorem logisticRow_of_vector (A : (⟨2, ![a, n]⟩ : Shape).Idx → EReal) (b : (⟨1, ![n]⟩ : Shape).Idx → EReal)
    (h : (⟨1, ![n]⟩ : Shape).ShapeCasts ⟨2, ![1, n]⟩) :
    logisticRow A (shapeCast ⟨2, ![1, n]⟩ b h) = logisticOf A b := by
  funext i
  obtain ⟨p, d, rfl⟩ : ∃ (p : Fin a) (d : Fin n), i = ix2 p d := ⟨i 0, i 1, eq_ix2 i⟩
  rw [logisticRow_apply, logisticOf_apply, shapeCast_a_1a_apply]

end Cert.Activation

end
-- ==== Proof.LibRowOfVector.lean ====
/-
  A bias vector as an array of one row, two ways.

  A vector of length `a` can be made an array of shape `[1, a]` by a reshape (row-major positions are kept) or by a
  broadcast that sends the vector's axis to the array's second axis. Both arrays have entry `(0, q)` equal to entry `q`
  of the vector, so they are the same array. A tiled kernel usually receives its bias in the first form, a whole-array
  reference usually builds the second.
-/
import Idealize.ShloMosaic.Lib.ValueLayout
import Idealize.ShloMosaic.Lib.ValueIdx
import Idealize.ShloMosaic.Lib.Pipeline.Value

noncomputable section

namespace Cert.LibRowOfVector

open Idealize.ShloMosaic Idealize.ShloMosaic.ValueIdx

/-- A vector reshaped to an array of one row is the vector broadcast along that row: entry `(0, q)` of either is
    entry `q` of the vector. Holds for any element type and any length (for length one the broadcast reads index
    `0`, which is the only index). -/
theorem row_of_vector {α : Type} {a : ℕ} (x : (⟨1, ![a]⟩ : Shape).Idx → α) (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext i
  obtain ⟨u, q, rfl⟩ : ∃ (u : Fin 1) (q : Fin a), i = ix2 u q := ⟨i 0, i 1, eq_ix2 i⟩
  rw [shapeCast_a_1a_apply]
  refine (broadcastInDim_apply _ hb x (ix2 u q) (ix1 q) (fun d => ?_)).symm
  match d with
  | ⟨0, _⟩ =>
    show q.val = if a = 1 then 0 else q.val
    split
    · have := q.isLt; omega
    · rfl

end Cert.LibRowOfVector

end
-- ==== Proof.LibHostBroadcast.lean ====
/-
  Two host broadcasts read at an entry.

  A one-row array [1, b] broadcast to [a, b] with both axes kept (dims = [0, 1]) reads, at (i, q), the row's entry
  (0, q): the unit axis reads index 0, the other axis its own coordinate (and when b = 1 that coordinate is 0 too).
  A scalar broadcast to any shape (dims = []) reads the scalar at every entry. These are the forms a whole-array
  reference builds a bias row and a constant array in.
-/
import Idealize.ShloMosaic.Lib.ValueIdx
import Idealize.ShloMosaic.Lib.Pipeline.Value

noncomputable section

namespace Cert.LibHostBroadcast

open Idealize.ShloMosaic Idealize.ShloMosaic.ValueIdx

/-- A one-row array broadcast down the rows (both axes kept) reads, at (i, q), the row's entry (0, q). -/
theorem bcast_rows_apply {α : Type} {a b : ℕ} (v : (⟨2, ![1, b]⟩ : Shape).Idx → α)
    (h : (⟨2, ![1, b]⟩ : Shape).BroadcastsInDim ⟨2, ![a, b]⟩ ![0, 1]) (i : Fin a) (q : Fin b) :
    broadcastInDim ⟨2, ![a, b]⟩ ![0, 1] h v (ix2 i q) = v (ix2 (0 : Fin 1) q) := by
  refine broadcastInDim_apply _ h v (ix2 i q) (ix2 (0 : Fin 1) q) fun d => ?_
  match d with
  | ⟨0, _⟩ => rfl
  | ⟨1, _⟩ =>
    show q.val = if b = 1 then 0 else q.val
    split
    · have := q.isLt; omega
    · rfl

/-- A scalar broadcast to an array reads the scalar at every entry. -/
theorem bcast_scalar_apply {α : Type} {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun d => d.elim0

end Cert.LibHostBroadcast

end
-- ==== Proof.LibHostBiasRelu.lean ====
/-
  Bias and rectifier as a host program spells them, and a block of rows standing for the whole array.

  A whole-array program adds a bias vector b of length n to every row of an [a, n] array by broadcasting b to one row
  [1, n], that row down the a rows, adding, and taking the maximum with a broadcast zero. Entry (i, d) of the result is
  max(A(i, d) + b(d), 0): the bias-and-rectifier with the bias laid out as one row (the form a tiled kernel receives it
  in, by a reshape). And since entry (i, d) of that array uses row i of A only, a block of rows of A, rectified with a
  copy of the bias row, is that block of rows of the rectified whole array. Any extents; no finiteness is used.
-/
import proofs.«109989_j5858335391843_2_alg».proof.Proof.LibActivation
import proofs.«109989_j5858335391843_2_alg».proof.Proof.LibRowOfVector
import proofs.«109989_j5858335391843_2_alg».proof.Proof.LibHostBroadcast
import Idealize.ShloMosaic.Lib.ValueLayout

noncomputable section

namespace Cert.HostBiasRelu

open Idealize.ShloMosaic Idealize.ShloMosaic.ValueIdx Cert.Activation

/-- A vector broadcast to one row reads, at (0, d), the vector's entry d. -/
theorem biasRow_apply {α : Type} {n : Nat} (b : (⟨1, ![n]⟩ : Shape).Idx → α) (hb : (⟨1, ![n]⟩ : Shape).BroadcastsInDim ⟨2, ![1, n]⟩ ![1])
    (hs : (⟨1, ![n]⟩ : Shape).ShapeCasts ⟨2, ![1, n]⟩) (d : Fin n) :
    broadcastInDim ⟨2, ![1, n]⟩ ![1] hb b (ix2 (0 : Fin 1) d) = b (ix1 d) := by
  rw [← Cert.LibRowOfVector.row_of_vector b hs hb, shapeCast_a_1a_apply]

/-- The host's add-bias-and-floor-at-zero, with the bias broadcast from a vector, is the bias-and-rectifier with the
    bias laid out as one row. -/
theorem hostBiasRelu {a n : Nat} (A : FVec Ideal ⟨2, ![a, n]⟩ .f32) (b : FVec Ideal ⟨1, ![n]⟩ .f32)
    (h1 : (⟨2, ![1, n]⟩ : Shape).BroadcastsInDim ⟨2, ![a, n]⟩ ![0, 1])
    (h2 : (⟨1, ![n]⟩ : Shape).BroadcastsInDim ⟨2, ![1, n]⟩ ![1])
    (h0 : (⟨0, ![]⟩ : Shape).BroadcastsInDim ⟨2, ![a, n]⟩ ![])
    (hs : (⟨1, ![n]⟩ : Shape).ShapeCasts ⟨2, ![1, n]⟩) :
    maximumf (addf A (broadcastInDim ⟨2, ![a, n]⟩ ![0, 1] h1 (broadcastInDim ⟨2, ![1, n]⟩ ![1] h2 b)))
        (broadcastInDim ⟨2, ![a, n]⟩ ![] h0 (constant (F := Ideal) ⟨0, ![]⟩ .f32 0x00000000#32))
      = rectifiedRow A (shapeCast ⟨2, ![1, n]⟩ b hs) := by
  funext i
  obtain ⟨p, d, rfl⟩ : ∃ (p : Fin a) (d : Fin n), i = ix2 p d := ⟨i 0, i 1, eq_ix2 i⟩
  rw [rectifiedRow_apply, shapeCast_a_1a_apply]
  show max (A (ix2 p d) + broadcastInDim ⟨2, ![a, n]⟩ ![0, 1] h1 (broadcastInDim ⟨2, ![1, n]⟩ ![1] h2 b) (ix2 p d))
      (broadcastInDim ⟨2, ![a, n]⟩ ![] h0 (constant (F := Ideal) ⟨0, ![]⟩ .f32 0x00000000#32) (ix2 p d)) = _
  rw [Cert.LibHostBroadcast.bcast_rows_apply, Cert.LibHostBroadcast.bcast_scalar_apply, biasRow_apply b h2 hs d]
  rfl

/-- A row of the rectified array depends on its own row only: a block of rows, rectified with a copy of the bias row,
    is that block of the rectified whole array. -/
theorem rectifiedRow_of_rows {B M n : Nat} (ab : (⟨2, ![B, n]⟩ : Shape).Idx → EReal) (bb : (⟨2, ![1, n]⟩ : Shape).Idx → EReal)
    (A : (⟨2, ![M, n]⟩ : Shape).Idx → EReal) (b : (⟨2, ![1, n]⟩ : Shape).Idx → EReal) (p : Fin B) (d : Fin n) (i : Fin M)
    (hA : ab (ix2 p d) = A (ix2 i d)) (hb : bb (ix2 (0 : Fin 1) d) = b (ix2 (0 : Fin 1) d)) :
    rectifiedRow ab bb (ix2 p d) = rectifiedRow A b (ix2 i d) := by
  rw [rectifiedRow_apply, rectifiedRow_apply, hA, hb]

end Cert.HostBiasRelu

end
-- ==== Proof.RefValue.lean ====
/-
  The reference program's result as a function of its nine arguments.

  The reference computes, with whole-array operations only: a dense rectified layer of the node features; three
  neighbourhood-mean layers, each taking the features so far, forming their mean over incoming edges, sending the mean
  through one weight matrix with a bias and the features themselves through another, adding, and flooring at zero; and
  a linear read-out. Its run ends with one long composed term of these operations applied to the launch arguments.

  Here that term is read in three steps.
  1. Entry by entry, at any extents: a plain matrix product plus a bias vector repeated down the rows, floored at an
     array of zeros, has entry (p, q) equal to max (∑ k, x(p,k)·w(k,q) + b(q)) 0; likewise with a second product added
     before the floor, and likewise without the floor. These are the layer functions dense, sage and affine.
  2. The composed term is the nesting encoder → layer → layer → layer → read-out of the reference's own layer texts,
     with the neighbourhood mean and the parameter slices named as the shared host operations name them: nothing is
     computed, names are folded.
  3. Rewriting each layer text by step 1 turns the nesting into the result function.
  No finiteness of any entry is used: sums and maxima are taken on the extended reals exactly as written.
-/
import proofs.«109989_j5858335391843_2_alg».proof.Proof.RefRunPatched
import proofs.«109989_j5858335391843_2_alg».proof.Proof.HostSpec
import proofs.«109989_j5858335391843_2_alg».proof.Proof.LibHostBiasRelu

noncomputable section

namespace Cert.RefValue

open Idealize.ShloMosaic Idealize.ShloMosaic.ValueIdx Idealize.ShloMosaic.MatProd Idealize.ShloMosaic.DotPlain
open Cert.SageSpec Cert.LibHostBroadcast Cert.HostBiasRelu

/-! ## The three layers as the host spells them, at any extents -/

section Generic

variable {M K N : Nat}

/-- Product, bias row, floor at zero: entry (p, q) is max (∑ k, x(p,k)·w(k,q) + b(q)) 0. -/
theorem hostDense_gen (d : DotDims ⟨2, ![M, K]⟩ ⟨2, ![K, N]⟩ ⟨2, ![M, N]⟩) (hd : IsPlain d)
    (x : FVec Ideal ⟨2, ![M, K]⟩ .f32) (w : FVec Ideal ⟨2, ![K, N]⟩ .f32) (b : FVec Ideal ⟨1, ![N]⟩ .f32)
    (h1 : (⟨2, ![1, N]⟩ : Shape).BroadcastsInDim ⟨2, ![M, N]⟩ ![0, 1])
    (h2 : (⟨1, ![N]⟩ : Shape).BroadcastsInDim ⟨2, ![1, N]⟩ ![1])
    (h0 : (⟨0, ![]⟩ : Shape).BroadcastsInDim ⟨2, ![M, N]⟩ ![])
    (hs : (⟨1, ![N]⟩ : Shape).ShapeCasts ⟨2, ![1, N]⟩) :
    maximumf (addf (Host.dotGeneral d none x w)
        (broadcastInDim ⟨2, ![M, N]⟩ ![0, 1] h1 (broadcastInDim ⟨2, ![1, N]⟩ ![1] h2 b)))
      (broadcastInDim ⟨2, ![M, N]⟩ ![] h0 (constant (F := Ideal) ⟨0, ![]⟩ .f32 0x00000000#32))
      = dense x w b := by
  funext i
  obtain ⟨p, q, rfl⟩ : ∃ (p : Fin M) (q : Fin N), i = ix2 p q := ⟨i 0, i 1, eq_ix2 i⟩
  rw [dense_apply, ← dotGeneral_eq hd none x w]
  show max (Host.dotGeneral d none x w (ix2 p q)
        + broadcastInDim ⟨2, ![M, N]⟩ ![0, 1] h1 (broadcastInDim ⟨2, ![1, N]⟩ ![1] h2 b) (ix2 p q))
      (broadcastInDim ⟨2, ![M, N]⟩ ![] h0 (constant (F := Ideal) ⟨0, ![]⟩ .f32 0x00000000#32) (ix2 p q)) = _
  rw [bcast_rows_apply, bcast_scalar_apply, biasRow_apply b h2 hs q]
  rfl

/-- Two products, a bias row on the first, floor at zero:
    entry (p, q) is max ((∑ k, a(p,k)·wl(k,q) + bl(q)) + ∑ k, h(p,k)·wr(k,q)) 0. -/
theorem hostSage_gen (d : DotDims ⟨2, ![M, K]⟩ ⟨2, ![K, N]⟩ ⟨2, ![M, N]⟩) (hd : IsPlain d)
    (a h : FVec Ideal ⟨2, ![M, K]⟩ .f32) (wl : FVec Ideal ⟨2, ![K, N]⟩ .f32) (bl : FVec Ideal ⟨1, ![N]⟩ .f32)
    (wr : FVec Ideal ⟨2, ![K, N]⟩ .f32)
    (h1 : (⟨2, ![1, N]⟩ : Shape).BroadcastsInDim ⟨2, ![M, N]⟩ ![0, 1])
    (h2 : (⟨1, ![N]⟩ : Shape).BroadcastsInDim ⟨2, ![1, N]⟩ ![1])
    (h0 : (⟨0, ![]⟩ : Shape).BroadcastsInDim ⟨2, ![M, N]⟩ ![])
    (hs : (⟨1, ![N]⟩ : Shape).ShapeCasts ⟨2, ![1, N]⟩) :
    maximumf (addf (addf (Host.dotGeneral d none a wl)
          (broadcastInDim ⟨2, ![M, N]⟩ ![0, 1] h1 (broadcastInDim ⟨2, ![1, N]⟩ ![1] h2 bl)))
        (Host.dotGeneral d none h wr))
      (broadcastInDim ⟨2, ![M, N]⟩ ![] h0 (constant (F := Ideal) ⟨0, ![]⟩ .f32 0x00000000#32))
      = sage a h wl bl wr := by
  funext i
  obtain ⟨p, q, rfl⟩ : ∃ (p : Fin M) (q : Fin N), i = ix2 p q := ⟨i 0, i 1, eq_ix2 i⟩
  rw [sage_apply, ← dotGeneral_eq hd none a wl, ← dotGeneral_eq hd none h wr]
  show max ((Host.dotGeneral d none a wl (ix2 p q)
          + broadcastInDim ⟨2, ![M, N]⟩ ![0, 1] h1 (broadcastInDim ⟨2, ![1, N]⟩ ![1] h2 bl) (ix2 p q))
        + Host.dotGeneral d none h wr (ix2 p q))
      (broadcastInDim ⟨2, ![M, N]⟩ ![] h0 (constant (F := Ideal) ⟨0, ![]⟩ .f32 0x00000000#32) (ix2 p q)) = _
  rw [bcast_rows_apply, bcast_scalar_apply, biasRow_apply bl h2 hs q]
  rfl

/-- Product and bias row: entry (p, q) is ∑ k, h(p,k)·w(k,q) + b(q). -/
theorem hostAffine_gen (d : DotDims ⟨2, ![M, K]⟩ ⟨2, ![K, N]⟩ ⟨2, ![M, N]⟩) (hd : IsPlain d)
    (h : FVec Ideal ⟨2, ![M, K]⟩ .f32) (w : FVec Ideal ⟨2, ![K, N]⟩ .f32) (b : FVec Ideal ⟨1, ![N]⟩ .f32)
    (h1 : (⟨2, ![1, N]⟩ : Shape).BroadcastsInDim ⟨2, ![M, N]⟩ ![0, 1])
    (h2 : (⟨1, ![N]⟩ : Shape).BroadcastsInDim ⟨2, ![1, N]⟩ ![1])
    (hs : (⟨1, ![N]⟩ : Shape).ShapeCasts ⟨2, ![1, N]⟩) :
    addf (Host.dotGeneral d none h w)
        (broadcastInDim ⟨2, ![M, N]⟩ ![0, 1] h1 (broadcastInDim ⟨2, ![1, N]⟩ ![1] h2 b))
      = affine h w b := by
  funext i
  obtain ⟨p, q, rfl⟩ : ∃ (p : Fin M) (q : Fin N), i = ix2 p q := ⟨i 0, i 1, eq_ix2 i⟩
  rw [affine_apply, ← dotGeneral_eq hd none h w]
  show Host.dotGeneral d none h w (ix2 p q)
        + broadcastInDim ⟨2, ![M, N]⟩ ![0, 1] h1 (broadcastInDim ⟨2, ![1, N]⟩ ![1] h2 b) (ix2 p q) = _
  rw [bcast_rows_apply, biasRow_apply b h2 hs q]

end Generic

/-! ## The reference's three layers, in its own words

  The reference writes each layer as whole-array operations: a product (two for a neighbourhood-mean layer), the bias
  vector laid out as a row and repeated down the rows, a sum, and (except in the read-out) the maximum with an array of
  zeros. Named here with the reference's own shape and dimension records, each is the layer function of the same
  operands. -/

section Reference

open Cert.ReferenceIdeal Cert.ReferenceIdeal.Gen

/-- The encoder as the reference writes it. -/
def hostDenseT (x : FVec Ideal S50000x128 .f32) (w : FVec Ideal S128x96 .f32) (b : FVec Ideal S96 .f32) :
    FVec Ideal S50000x96 .f32 :=
  maximumf (addf (Host.dotGeneral dot_S50000x128_S128x96_S50000x96_1_0_0_1_n_n none x w) (broadcastInDim S50000x96 ![0, 1] bcast_S1x96_S50000x96_0_1 (broadcastInDim S1x96 ![1] bcast_S96_S1x96_1 b))) (broadcastInDim S50000x96 ![] bcast_S_S50000x96 (constant (F := Ideal) S_ .f32 0x00000000#32))

/-- A neighbourhood-mean layer as the reference writes it, the aggregated rows `a` given. -/
def hostSageT (a h : FVec Ideal S50000x96 .f32) (wl : FVec Ideal S96x96 .f32) (bl : FVec Ideal S96 .f32)
    (wr : FVec Ideal S96x96 .f32) : FVec Ideal S50000x96 .f32 :=
  maximumf (addf (addf (Host.dotGeneral dot_S50000x96_S96x96_S50000x96_1_0_0_1_n_n none a wl) (broadcastInDim S50000x96 ![0, 1] bcast_S1x96_S50000x96_0_1 (broadcastInDim S1x96 ![1] bcast_S96_S1x96_1 bl))) (Host.dotGeneral dot_S50000x96_S96x96_S50000x96_1_0_0_1_n_n none h wr)) (broadcastInDim S50000x96 ![] bcast_S_S50000x96 (constant (F := Ideal) S_ .f32 0x00000000#32))

/-- The read-out as the reference writes it. -/
def hostAffineT (h : FVec Ideal S50000x96 .f32) (w : FVec Ideal S96x40 .f32) (b : FVec Ideal S40 .f32) :
    FVec Ideal S50000x40 .f32 :=
  addf (Host.dotGeneral dot_S50000x96_S96x40_S50000x40_1_0_0_1_n_n none h w) (broadcastInDim S50000x40 ![0, 1] bcast_S1x40_S50000x40_0_1 (broadcastInDim S1x40 ![1] bcast_S40_S1x40_1 b))

theorem hostDenseT_eq (x : FVec Ideal S50000x128 .f32) (w : FVec Ideal S128x96 .f32) (b : FVec Ideal S96 .f32) :
    hostDenseT x w b = dense x w b :=
  hostDense_gen dot_S50000x128_S128x96_S50000x96_1_0_0_1_n_n ⟨rfl, rfl, rfl, rfl, rfl, rfl⟩ x w b
    bcast_S1x96_S50000x96_0_1 bcast_S96_S1x96_1 bcast_S_S50000x96 (by decide)

theorem hostSageT_eq (a h : FVec Ideal S50000x96 .f32) (wl : FVec Ideal S96x96 .f32) (bl : FVec Ideal S96 .f32)
    (wr : FVec Ideal S96x96 .f32) : hostSageT a h wl bl wr = sage a h wl bl wr :=
  hostSage_gen dot_S50000x96_S96x96_S50000x96_1_0_0_1_n_n ⟨rfl, rfl, rfl, rfl, rfl, rfl⟩ a h wl bl wr
    bcast_S1x96_S50000x96_0_1 bcast_S96_S1x96_1 bcast_S_S50000x96 (by decide)

theorem hostAffineT_eq (h : FVec Ideal S50000x96 .f32) (w : FVec Ideal S96x40 .f32) (b : FVec Ideal S40 .f32) :
    hostAffineT h w b = affine h w b :=
  hostAffine_gen dot_S50000x96_S96x40_S50000x40_1_0_0_1_n_n ⟨rfl, rfl, rfl, rfl, rfl, rfl⟩ h w b
    bcast_S1x40_S50000x40_0_1 bcast_S40_S1x40_1 (by decide)

end Reference

/-! ## The whole reference

  The reference's result is one nested term: the encoder; three times a neighbourhood-mean layer on the features so far
  (their mean over incoming edges through the left weights and bias, the features themselves through the right weights);
  the read-out. The stages below name that nesting with the reference's own layer texts above and the shared host
  operations (the neighbourhood mean and the slices of the stacked parameters). The run's composed term IS this nesting,
  operation for operation — only names are folded and the two programs' copies of the same shape and dimension records
  identified —, and each layer text is the corresponding layer function, so the nesting is the result function. -/

section Whole

open Cert.ReferenceIdeal Cert.ReferenceIdeal.Gen

variable [Cert.KernelIdeal.Facts]

/-- The features after the encoder. -/
def hid0 (x : FVec Ideal S50000x128 .f32) (ew : FVec Ideal S128x96 .f32) (eb : FVec Ideal S96 .f32) : FVec Ideal S50000x96 .f32 :=
  hostDenseT x ew eb

/-- The features after the first neighbourhood-mean layer. -/
def hid1 (x : FVec Ideal S50000x128 .f32) (ei : (⟨S2x800000, .i32⟩ : BufTy).Contents (Elt Ideal))
    (ew : FVec Ideal S128x96 .f32) (eb : FVec Ideal S96 .f32)
    (lW : FVec Ideal S3x96x96 .f32) (lB : FVec Ideal S3x96 .f32)
    (rW : FVec Ideal S3x96x96 .f32) : FVec Ideal S50000x96 .f32 :=
  hostSageT (Cert.SageHost.meanOf ei (hid0 x ew eb)) (hid0 x ew eb)
    (Cert.SageHost.wOf0 lW) (Cert.SageHost.bOf0 lB) (Cert.SageHost.wOf0 rW)

/-- The features after the second neighbourhood-mean layer. -/
def hid2 (x : FVec Ideal S50000x128 .f32) (ei : (⟨S2x800000, .i32⟩ : BufTy).Contents (Elt Ideal))
    (ew : FVec Ideal S128x96 .f32) (eb : FVec Ideal S96 .f32)
    (lW : FVec Ideal S3x96x96 .f32) (lB : FVec Ideal S3x96 .f32)
    (rW : FVec Ideal S3x96x96 .f32) : FVec Ideal S50000x96 .f32 :=
  hostSageT (Cert.SageHost.meanOf ei (hid1 x ei ew eb lW lB rW)) (hid1 x ei ew eb lW lB rW)
    (Cert.SageHost.wOf1 lW) (Cert.SageHost.bOf1 lB) (Cert.SageHost.wOf1 rW)

/-- The features after the third neighbourhood-mean layer. -/
def hid3 (x : FVec Ideal S50000x128 .f32) (ei : (⟨S2x800000, .i32⟩ : BufTy).Contents (Elt Ideal))
    (ew : FVec Ideal S128x96 .f32) (eb : FVec Ideal S96 .f32)
    (lW : FVec Ideal S3x96x96 .f32) (lB : FVec Ideal S3x96 .f32)
    (rW : FVec Ideal S3x96x96 .f32) : FVec Ideal S50000x96 .f32 :=
  hostSageT (Cert.SageHost.meanOf ei (hid2 x ei ew eb lW lB rW)) (hid2 x ei ew eb lW lB rW)
    (Cert.SageHost.wOf2 lW) (Cert.SageHost.bOf2 lB) (Cert.SageHost.wOf2 rW)

/-- The reference's result, stage by stage. -/
def refText (x : FVec Ideal S50000x128 .f32) (ei : (⟨S2x800000, .i32⟩ : BufTy).Contents (Elt Ideal))
    (ew : FVec Ideal S128x96 .f32) (eb : FVec Ideal S96 .f32)
    (lW : FVec Ideal S3x96x96 .f32) (lB : FVec Ideal S3x96 .f32)
    (rW : FVec Ideal S3x96x96 .f32)
    (dw : FVec Ideal S96x40 .f32) (db : FVec Ideal S40 .f32) : FVec Ideal S50000x40 .f32 :=
  hostAffineT (hid3 x ei ew eb lW lB rW) dw db

theorem hid0_eq (x : FVec Ideal S50000x128 .f32) (ew : FVec Ideal S128x96 .f32) (eb : FVec Ideal S96 .f32) :
    hid0 x ew eb = dense x ew eb :=
  hostDenseT_eq x ew eb

theorem hid1_eq (x : FVec Ideal S50000x128 .f32) (ei : (⟨S2x800000, .i32⟩ : BufTy).Contents (Elt Ideal))
    (ew : FVec Ideal S128x96 .f32) (eb : FVec Ideal S96 .f32)
    (lW : FVec Ideal S3x96x96 .f32) (lB : FVec Ideal S3x96 .f32)
    (rW : FVec Ideal S3x96x96 .f32) :
    hid1 x ei ew eb lW lB rW
      = Cert.SageHost.layer ei (dense x ew eb) (Cert.SageHost.wOf0 lW) (Cert.SageHost.bOf0 lB) (Cert.SageHost.wOf0 rW) := by
  unfold hid1 Cert.SageHost.layer
  rw [hid0_eq, hostSageT_eq]

theorem hid2_eq (x : FVec Ideal S50000x128 .f32) (ei : (⟨S2x800000, .i32⟩ : BufTy).Contents (Elt Ideal))
    (ew : FVec Ideal S128x96 .f32) (eb : FVec Ideal S96 .f32)
    (lW : FVec Ideal S3x96x96 .f32) (lB : FVec Ideal S3x96 .f32)
    (rW : FVec Ideal S3x96x96 .f32) :
    hid2 x ei ew eb lW lB rW
      = Cert.SageHost.layer ei
          (Cert.SageHost.layer ei (dense x ew eb) (Cert.SageHost.wOf0 lW) (Cert.SageHost.bOf0 lB) (Cert.SageHost.wOf0 rW))
          (Cert.SageHost.wOf1 lW) (Cert.SageHost.bOf1 lB) (Cert.SageHost.wOf1 rW) := by
  unfold hid2
  rw [hid1_eq, hostSageT_eq]
  rfl

theorem hid3_eq (x : FVec Ideal S50000x128 .f32) (ei : (⟨S2x800000, .i32⟩ : BufTy).Contents (Elt Ideal))
    (ew : FVec Ideal S128x96 .f32) (eb : FVec Ideal S96 .f32)
    (lW : FVec Ideal S3x96x96 .f32) (lB : FVec Ideal S3x96 .f32)
    (rW : FVec Ideal S3x96x96 .f32) :
    hid3 x ei ew eb lW lB rW = Cert.SageHost.hidden x ei ew eb lW lB rW := by
  unfold hid3
  rw [hid2_eq, hostSageT_eq]
  rfl

/-- The stage-by-stage text is the result function. -/
theorem refText_eq (x : FVec Ideal S50000x128 .f32) (ei : (⟨S2x800000, .i32⟩ : BufTy).Contents (Elt Ideal))
    (ew : FVec Ideal S128x96 .f32) (eb : FVec Ideal S96 .f32)
    (lW : FVec Ideal S3x96x96 .f32) (lB : FVec Ideal S3x96 .f32)
    (rW : FVec Ideal S3x96x96 .f32)
    (dw : FVec Ideal S96x40 .f32) (db : FVec Ideal S40 .f32) :
    refText x ei ew eb lW lB rW dw db = Cert.SageHost.result x ei ew eb lW lB rW dw db := by
  unfold refText
  rw [hid3_eq, hostAffineT_eq]
  rfl

end Whole

/-! ## The run's composed term -/

section Run

open Cert.ReferenceIdeal Cert.ReferenceIdeal.Gen

variable [Cert.KernelIdeal.Facts]

set_option maxRecDepth 8192 in
/-- The term the reference's run ends with is the stage-by-stage text of the launch arguments: the two differ only by
    folding names and by which program's copy of a shape or dimension record is written. -/
theorem res_eq_refText (m : (ℓ : Loc nD τ sig) → Buf (Elt Ideal) ℓ) (c : Dev nD) :
    ValueP.res_main_v114 (F := Ideal) m c
      = refText (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8)) := by
  unfold ValueP.res_main_v114
  rfl

end Run

/-- THE REFERENCE'S RESULT: on every device the value the reference's run leaves in its result buffer is the result
    function of the nine launch arguments (features, edge list, encoder weights and bias, the stacked left weights,
    biases and right weights of the three layers, read-out weights and bias). -/
theorem result_eq [Cert.KernelIdeal.Facts] [Cert.ReferenceIdeal.Facts]
    (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v114 (F := Ideal) m c
      = Cert.SageHost.result
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8)) :=
  (res_eq_refText m c).trans (refText_eq _ _ _ _ _ _ _ _ _)

end Cert.RefValue

end
-- ==== Proof.KRun.lean ====
/-
  The idealized kernel program's run with its RESULT named: every weakly fair execution of @main terminates without a
  fault, the argument arrays end as launched, and the returned array ends at the contents the fold of @main's
  segments gives it — the last stretch of host operations applied to what the fourth region leaves, which is the
  third region's exit contents through their host operations, and so on back to the launch memory. The launch over
  the segments is the frame's; the only difference is that the final thread state is also read at the result buffer.
-/
import proofs.«109989_j5858335391843_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the returned array at the fold's contents and the arguments unchanged. -/
theorem run_main : θ_run defs (onTc (τ := τ) (main (F := F))) ⟨m, fun _ => 0, ρ⟩ (fun r => ∀ c : Dev nD,
      r.2.mem ((c.tc : Thread nD τ).loc main_v79) = W19 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v79 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c)⟩)

end Cert.KernelIdeal.RunValue

end
-- ==== Proof.KPay0.lean ====
/-
  The encoder kernel's stored value, entry by entry: on a block of 10000 rows the body multiplies the block by the
  whole weight matrix (a matrix-unit product into a zero accumulator), adds the bias (a vector laid out as one row and
  copied down the rows) and takes the maximum with zero. Entry (p, q) is max (∑ k, x(p,k)·w(k,q) + b(q)) 0: the dense
  layer of the block.
-/
import proofs.«109989_j5858335391843_2_alg».proof.Proof.Gen.KernelIdeal.Skeleton
import proofs.«109989_j5858335391843_2_alg».proof.Proof.Spec
import Idealize.ShloMosaic.Lib.ValueLayout
import Idealize.ShloMosaic.Lib.Pipeline.Value

noncomputable section

namespace Cert.KernelIdeal.Pay

open Idealize.ShloMosaic Idealize.ShloMosaic.ValueIdx Idealize.ShloMosaic.DotPlain Cert.KernelIdeal Cert.SageSpec

/-- The encoder product's dimension numbers are those of a plain matrix product. -/
theorem plain_enc : IsPlain dot_S10000x128_S128x96_S10000x96_1_0_0_1_n_n := ⟨rfl, rfl, rfl, rfl, rfl, rfl⟩

/-- The stored value of the encoder body is the dense layer of its loaded blocks. -/
theorem pay0_eq (v0 : Vec Ideal S10000x128 .f32) (v1 : Vec Ideal S128x96 .f32) (v3 : Vec Ideal S96 .f32) :
    Gen.k0_pay1 (F := Ideal) v0 v1 v3 = dense v0 v1 v3 := by
  funext i
  obtain ⟨p, q, rfl⟩ : ∃ (p : Fin 10000) (q : Fin 96), i = ix2 p q := ⟨i 0, i 1, eq_ix2 i⟩
  rw [dense_apply]
  unfold Gen.k0_pay1
  show max (matmul dot_S10000x128_S128x96_S10000x96_1_0_0_1_n_n (some .fp32) v0 v1
        (constant (F := Ideal) S10000x96 .f32 0x00000000#32) (ix2 p q)
      + broadcastTo S10000x96 (shapeCast S1x96 v3 _) _ (ix2 p q))
      (Ideal.ofBits .f32 0x00000000#32) = _
  rw [MatProd.matmul_zero_apply plain_enc, broadcastTo_1b_ab_apply, shapeCast_a_1a_apply]

end Cert.KernelIdeal.Pay

end
-- ==== Proof.KRegion0.lean ====
/-
  What the encoder region leaves in its output array, as one function of the arrays it finds on entry.

  The region walks five grid points; point t fetches rows t·10000 … t·10000 + 9999 of the node features, the whole
  weight matrix and the whole bias, and writes back the dense layer of that block of rows as rows t·10000 … of the
  output. Entry (i, j) of a dense layer uses row i of the features only, so each written block is that block of the
  dense layer of the WHOLE feature array; the five blocks tile the 50000 rows, so the output array ends holding the
  dense layer of the whole arrays.
-/
import proofs.«109989_j5858335391843_2_alg».proof.Proof.Gen.KernelIdeal.Frame
import proofs.«109989_j5858335391843_2_alg».proof.Proof.KPay0

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageSpec

theorem zero2 : (![0, 0] : Fin 2 → Nat) = fun _ => 0 := funext fun a => by fin_cases a <;> rfl
theorem zero1 : (![0] : Fin 1 → Nat) = fun _ => 0 := funext fun a => by fin_cases a <;> rfl

/-- Entry (p, q) of the dense layer of a block of rows, a copy of the weights and a copy of the bias is entry (r, q) of
    the dense layer of the whole arrays, when row p of the block is row r of the whole. -/
theorem dense_block (X : S50000x128.Idx → EReal) (W : S128x96.Idx → EReal) (Bv : S96.Idx → EReal)
    (xb : S10000x128.Idx → EReal) (wb : S128x96.Idx → EReal) (bb : S96.Idx → EReal)
    (r : Fin 50000) (p : Fin 10000) (q : Fin 96)
    (hx : ∀ k : Fin 128, xb (ix2 p k) = X (ix2 r k)) (hw : wb = W) (hb : bb = Bv) :
    dense xb wb bb (ix2 p q) = dense X W Bv (ix2 r q) := by
  subst hw hb
  exact dense_of_rows xb X wb bb p r q hx

variable (V : (c : Dev nD) → (b : Ref sig .tc) → Buf (Elt Ideal) ((c : Thread nD τ).loc b))

/-- The dense layer of the arrays the encoder region finds on entry. -/
def encOut (c : Dev nD) : S50000x96.Idx → EReal :=
  dense (V c (Pipeline.arrRef spec0 0) : S50000x128.Idx → EReal) (V c (Pipeline.arrRef spec0 1) : S128x96.Idx → EReal)
    (V c (Pipeline.arrRef spec0 2) : S96.Idx → EReal)

/-- The printed index maps over the five grid points: the feature and output blocks move with the point, the weights
    and the bias stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- WHAT POINT t WRITES BACK is block t of the dense layer of the whole arrays. -/
theorem flushed0 (c : Dev nD) (t : Fin cfg0.N) :
    (dat0 (F := Ideal) V c).flushed 3 t = ((cfg0.win 3).blk t).view.read (Elt Ideal) (encOut V c) := by
  show (cfg0.win 3).cut (grid0.coords t) ((dat0 V c).after 3 t) = _
  rw [after0_3]
  unfold out0_3
  rw [View.canon_unit_zero zero2]
  simp only [View.ld_unit_zero (S := S10000x128) zero2, View.ld_unit_zero (S := S128x96) zero2,
    View.ld_unit_zero (S := S96) zero1]
  rw [Pay.pay0_eq]
  obtain ⟨e0, e1, e2, e3, e4, e5, e6⟩ := idx0 t
  have ht : t.val < 5 := by have h := t.isLt; have hN : cfg0.N = 5 := N_0; omega
  funext j
  obtain ⟨p, q, rfl⟩ : ∃ (p : Fin 10000) (q : Fin 96), j = ix2 p q := ⟨j 0, j 1, eq_ix2 j⟩
  have hr : t.val * 10000 + p.val < 50000 := by have := p.isLt; omega
  have hemb : ((cfg0.win 3).blk t).view.emb (ix2 p q) = ix2 (⟨t.val * 10000 + p.val, hr⟩ : Fin 50000) q := by
    funext a; apply Fin.ext
    match a with
    | ⟨0, _⟩ => show win0_3.index t (0 : Fin 2) * 10000 + 1 * p.val = t.val * 10000 + p.val; omega
    | ⟨1, _⟩ => show win0_3.index t (1 : Fin 2) * 96 + 1 * q.val = q.val; omega
  show dense (iblk0 V c 0 t) (iblk0 V c 1 t) (iblk0 V c 2 t) (ix2 p q)
    = encOut V c (((cfg0.win 3).blk t).view.emb (ix2 p q))
  rw [hemb]
  refine dense_block _ _ _ _ _ _ ⟨t.val * 10000 + p.val, hr⟩ p q (fun k => ?_) (funext fun y => ?_) (funext fun y => ?_)
  · show V c (Pipeline.arrRef spec0 0) (((cfg0.win 0).blk t).view.emb (ix2 p k)) = _
    refine congrArg (V c (Pipeline.arrRef spec0 0)) ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  · show V c (Pipeline.arrRef spec0 1) (((cfg0.win 1).blk t).view.emb y) = _
    refine congrArg (V c (Pipeline.arrRef spec0 1)) ?_
    funext a; apply Fin.ext
    match a with
    | ⟨0, _⟩ => show win0_1.index t (0 : Fin 2) * 128 + 1 * (y 0).val = (y 0).val; omega
    | ⟨1, _⟩ => show win0_1.index t (1 : Fin 2) * 96 + 1 * (y 1).val = (y 1).val; omega
  · show V c (Pipeline.arrRef spec0 2) (((cfg0.win 2).blk t).view.emb y) = _
    refine congrArg (V c (Pipeline.arrRef spec0 2)) ?_
    funext a; apply Fin.ext
    match a with
    | ⟨0, _⟩ => show win0_2.index t (0 : Fin 1) * 96 + 1 * (y 0).val = (y 0).val; omega

/-- An index of the output array is in point t's block iff each coordinate is in the block's range on its axis. -/
theorem mem_blk0 (t : Fin cfg0.N) (i : S50000x96.Idx) :
    i ∈ ((cfg0.win 3).blk t).view.set ↔ ∀ a : Fin 2, win0_3.index t a * S10000x96.size a ≤ (i a).val
      ∧ (i a).val < win0_3.index t a * S10000x96.size a + S10000x96.size a := by
  show i ∈ ((View.whole main_v10).slice (win0_3.rect t)).set ↔ _
  rw [View.set_slice_whole, Rect.mem_set_unit]
  exact Iff.rfl

/-- Every row of the output lies in the block of the point numbered by its row divided by 10000. -/
theorem cover0 (i : S50000x96.Idx) :
    ∃ t : Fin cfg0.N, (cfg0.win 3).flush t = true ∧ i ∈ ((cfg0.win 3).blk t).view.set := by
  have hi0 : (i 0).val < 50000 := (i 0).isLt
  have hi1 : (i 1).val < 96 := (i 1).isLt
  have hN : cfg0.N = 5 := N_0
  let t : Fin cfg0.N := ⟨(i 0).val / 10000, by rw [hN]; omega⟩
  obtain ⟨e0, e1, e2, e3, e4, e5, e6⟩ := idx0 t
  have htv : t.val = (i 0).val / 10000 := rfl
  refine ⟨t, flush0_3 t, ?_⟩
  rw [mem_blk0]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 96 ≤ (i 1).val ∧ (i 1).val < win0_3.index t (1 : Fin 2) * 96 + 96
    omega

/-- THE ENCODER REGION'S OUTPUT ARRAY after the region: the dense layer of the arrays found on entry. -/
theorem region0 (c : Dev nD) : (dat0 (F := Ideal) V c).arrAt 3 cfg0.N = encOut V c :=
  (dat0 (F := Ideal) V c).arrAt_eq_of_cover 3 (encOut V c) (fun t _ => flushed0 V c t) (cover0)

end Cert.KernelIdeal.RegionValue

end
-- ==== Proof.Chain0.lean ====
/-
  The idealized kernel program followed from the launch to the end of its first region.

  Before the first region the host takes the two rows of the edge list, counts the edges arriving at each node and
  floors the count at one; the first region then leaves the dense rectified layer of the node features in its output
  array. None of these buffers, and none of the parameter arrays, is written again by that region, so after it each
  still holds what it held. Every fact here is "this buffer, at this point of the program, holds this function of the
  launch memory".
-/
import proofs.«109989_j5858335391843_2_alg».proof.Proof.Gen.KernelIdeal.Frame
import proofs.«109989_j5858335391843_2_alg».proof.Proof.HostSpec
import proofs.«109989_j5858335391843_2_alg».proof.Proof.KRegion0
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.SageSpec Cert.SageHost Cert.KernelIdeal.RegionValue

variable (m : (ℓ : Loc nD τ sig) → Buf (Elt Ideal) ℓ) (ρ : Dev nD → PrngReg) (c : Dev nD)

/-- The count floored at one. -/
def cntSafeOf (ei : (⟨S2x800000, .i32⟩ : BufTy).Contents (Elt Ideal)) : (⟨S50000x1, .f32⟩ : BufTy).Contents (Elt Ideal) :=
  maximumf (cntOf ei) (broadcastInDim S50000x1 ![] bcast_S_S50000x1 (constant (F := Ideal) S_ .f32 0x3F800000#32))

/-- Equal operands give equal dense layers. -/
theorem dense_congr {M K N : Nat} {x x' : (⟨2, ![M, K]⟩ : Shape).Idx → EReal} {w w' : (⟨2, ![K, N]⟩ : Shape).Idx → EReal}
    {b b' : (⟨1, ![N]⟩ : Shape).Idx → EReal} (hx : x = x') (hw : w = w') (hb : b = b') : dense x w b = dense x' w' b' := by
  subst hx hw hb; rfl

/-- Equal operands give equal neighbourhood-mean layers. -/
theorem sage_congr {M K N : Nat} {a a' h h' : (⟨2, ![M, K]⟩ : Shape).Idx → EReal} {wl wl' wr wr' : (⟨2, ![K, N]⟩ : Shape).Idx → EReal}
    {bl bl' : (⟨1, ![N]⟩ : Shape).Idx → EReal} (ha : a = a') (hh : h = h') (hwl : wl = wl') (hbl : bl = bl') (hwr : wr = wr') :
    sage a h wl bl wr = sage a' h' wl' bl' wr' := by
  subst ha hh hwl hbl hwr; rfl

/-- Equal operands give equal read-outs. -/
theorem affine_congr {M K N : Nat} {h h' : (⟨2, ![M, K]⟩ : Shape).Idx → EReal} {w w' : (⟨2, ![K, N]⟩ : Shape).Idx → EReal}
    {b b' : (⟨1, ![N]⟩ : Shape).Idx → EReal} (hh : h = h') (hw : w = w') (hb : b = b') : affine h w b = affine h' w' b' := by
  subst hh hw hb; rfl

/-- A buffer read after the host operations before the first region. -/
macro "read_stage0" : tactic => `(tactic| (dsimp only [W1, hostOps0]; after_results))

/-! ## After the first stretch of host operations -/

theorem W1_v1 : W1 m ρ c (Proc.devRef .tc main_v1) = srcOf (m ((c : Thread nD τ).loc main_arg1)) := by read_stage0 <;> rfl
theorem W1_v3 : W1 m ρ c (Proc.devRef .tc main_v3) = dstOf (m ((c : Thread nD τ).loc main_arg1)) := by read_stage0 <;> rfl
theorem W1_v7 : W1 m ρ c (Proc.devRef .tc main_v7) = cntOf (m ((c : Thread nD τ).loc main_arg1)) := by read_stage0 <;> rfl
theorem W1_v9 : W1 m ρ c (Proc.devRef .tc main_v9) = cntSafeOf (m ((c : Thread nD τ).loc main_arg1)) := by read_stage0 <;> rfl
theorem W1_arg0 : W1 m ρ c (Proc.devRef .tc main_arg0) = m ((c : Thread nD τ).loc main_arg0) := by read_stage0 <;> rfl
theorem W1_arg2 : W1 m ρ c (Proc.devRef .tc main_arg2) = m ((c : Thread nD τ).loc main_arg2) := by read_stage0 <;> rfl
theorem W1_arg3 : W1 m ρ c (Proc.devRef .tc main_arg3) = m ((c : Thread nD τ).loc main_arg3) := by read_stage0 <;> rfl
theorem W1_arg4 : W1 m ρ c (Proc.devRef .tc main_arg4) = m ((c : Thread nD τ).loc main_arg4) := by read_stage0 <;> rfl
theorem W1_arg5 : W1 m ρ c (Proc.devRef .tc main_arg5) = m ((c : Thread nD τ).loc main_arg5) := by read_stage0 <;> rfl
theorem W1_arg6 : W1 m ρ c (Proc.devRef .tc main_arg6) = m ((c : Thread nD τ).loc main_arg6) := by read_stage0 <;> rfl
theorem W1_arg7 : W1 m ρ c (Proc.devRef .tc main_arg7) = m ((c : Thread nD τ).loc main_arg7) := by read_stage0 <;> rfl
theorem W1_arg8 : W1 m ρ c (Proc.devRef .tc main_arg8) = m ((c : Thread nD τ).loc main_arg8) := by read_stage0 <;> rfl

/-! ## After the first region -/

theorem W2_v1 : W2 m ρ c (Proc.devRef .tc main_v1) = srcOf (m ((c : Thread nD τ).loc main_arg1)) :=
  (W2_of_ne m ρ c main_v1 (by decide)).trans (W1_v1 m ρ c)
theorem W2_v3 : W2 m ρ c (Proc.devRef .tc main_v3) = dstOf (m ((c : Thread nD τ).loc main_arg1)) :=
  (W2_of_ne m ρ c main_v3 (by decide)).trans (W1_v3 m ρ c)
theorem W2_v7 : W2 m ρ c (Proc.devRef .tc main_v7) = cntOf (m ((c : Thread nD τ).loc main_arg1)) :=
  (W2_of_ne m ρ c main_v7 (by decide)).trans (W1_v7 m ρ c)
theorem W2_v9 : W2 m ρ c (Proc.devRef .tc main_v9) = cntSafeOf (m ((c : Thread nD τ).loc main_arg1)) :=
  (W2_of_ne m ρ c main_v9 (by decide)).trans (W1_v9 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)

/-- The first region's output: the dense rectified layer of the node features. -/
theorem W2_v10 : W2 m ρ c (Proc.devRef .tc main_v10)
    = dense (m ((c : Thread nD τ).loc main_arg0)) (m ((c : Thread nD τ).loc main_arg2)) (m ((c : Thread nD τ).loc main_arg3)) :=
  (W2_arr m ρ c 3).trans ((region0 (V1 m ρ) c).trans
    (dense_congr (W1_arg0 m ρ c) (W1_arg2 m ρ c) (W1_arg3 m ρ c)))

end Cert.KernelIdeal.Chain

end
-- ==== Proof.KPay1.lean ====
/-
  One block of the neighbourhood-mean kernel computes the neighbourhood-mean layer of its operands.

  The block's arithmetic takes a block of aggregated rows a and of own rows h (10000 rows of 96 entries each), two
  96×96 weight arrays wl and wr and a bias vector bl of length 96. It multiplies a by wl and h by wr, each product
  accumulated into an array of zeros, lays the bias out as one row and repeats that row down the 10000 rows, adds the
  three arrays in the grouping ((a·wl + bias) + h·wr), and takes the maximum with an array filled with the float zero.
  Read at entry (p, q): a product into zeros is the plain sum over k of left(p, k) · right(k, q); a reshape of an array
  to its own shape changes nothing; the bias row repeated down the rows reads bl(q) at every row p; the array filled with
  zero reads the zero word. So entry (p, q) is max((∑ₖ a(p,k)·wl(k,q) + bl(q)) + ∑ₖ h(p,k)·wr(k,q), 0), which is the
  definition of the layer, in the same grouping. Nothing is assumed about the values: the sums are taken as they stand
  on the extended reals.
-/
import proofs.«109989_j5858335391843_2_alg».proof.Proof.Gen.KernelIdeal.Skeleton
import proofs.«109989_j5858335391843_2_alg».proof.Proof.Spec
import Idealize.ShloMosaic.Lib.ValueLayout
import Idealize.ShloMosaic.Lib.Pipeline.Value

noncomputable section

namespace Cert.KPay1

open Idealize.ShloMosaic Idealize.ShloMosaic.ValueIdx Idealize.ShloMosaic.MatProd Idealize.ShloMosaic.DotPlain
open Cert.KernelIdeal

/-- The block arithmetic of the neighbourhood-mean kernel is the neighbourhood-mean layer (operands in the kernel's
    order: aggregated rows, own rows, wl, wr, bias; the layer takes the bias before wr). -/
theorem pay1_eq (v0 v2 : Vec Ideal S10000x96 .f32) (v4 v6 : Vec Ideal S96x96 .f32) (v9 : Vec Ideal S96 .f32) :
    Gen.k1_pay1 (F := Ideal) v0 v2 v4 v6 v9 = Cert.SageSpec.sage v0 v2 v4 v9 v6 := by
  funext i
  obtain ⟨p, q, rfl⟩ : ∃ (p : Fin 10000) (q : Fin 96), i = ix2 p q := ⟨i 0, i 1, eq_ix2 i⟩
  rw [Cert.SageSpec.sage_apply]
  unfold Gen.k1_pay1
  -- the maximum, the two sums and the operands at the entry
  show max
      ((matmul dot_S10000x96_S96x96_S10000x96_1_0_0_1_n_n (some .fp32) (shapeCast S10000x96 v0 _) (shapeCast S96x96 v4 _)
            (constant (F := Ideal) S10000x96 .f32 0x00000000#32) (ix2 p q)
          + broadcastTo S10000x96 (shapeCast S1x96 (shapeCast S96 v9 _) _) _ (ix2 p q))
        + matmul dot_S10000x96_S96x96_S10000x96_1_0_0_1_n_n (some .fp32) (shapeCast S10000x96 v2 _) (shapeCast S96x96 v6 _)
            (constant (F := Ideal) S10000x96 .f32 0x00000000#32) (ix2 p q))
      (Ideal.ofBits .f32 0x00000000#32) = _
  -- a reshape to the same shape is the identity
  rw [shapeCast_self v0, shapeCast_self v2, shapeCast_self v4, shapeCast_self v6, shapeCast_self v9]
  -- the two products into zeros, and the bias row read at (p, q)
  rw [MatProd.matmul_zero_apply ⟨rfl, rfl, rfl, rfl, rfl, rfl⟩ (some .fp32) v0 v4 (ix2 p q),
    MatProd.matmul_zero_apply ⟨rfl, rfl, rfl, rfl, rfl, rfl⟩ (some .fp32) v2 v6 (ix2 p q),
    broadcastTo_1b_ab_apply, shapeCast_a_1a_apply]

end Cert.KPay1

end
-- ==== Proof.KRegion1.lean ====
/-
  What a neighbourhood-mean region leaves in its output array, as one function of the arrays it finds on entry.

  The region walks five grid points. Point t fetches rows t·10000 … t·10000 + 9999 of the array of aggregated rows and
  the same rows of the array of own rows, and the two weight arrays and the bias whole; it writes back the
  neighbourhood-mean layer of those two blocks of rows as rows t·10000 … t·10000 + 9999 of the output. Entry (i, j) of
  the layer uses row i of the aggregated rows and row i of the own rows only, so each written block is that block of
  rows of the layer of the WHOLE arrays. The five blocks tile the 50000 rows (row r lies in the block of point
  r / 10000), so the output array ends holding the layer of the whole arrays.
-/
import proofs.«109989_j5858335391843_2_alg».proof.Proof.Gen.KernelIdeal.Frame
import proofs.«109989_j5858335391843_2_alg».proof.Proof.KPay1

set_option maxRecDepth 16384

noncomputable section

namespace Cert.KRegion1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageSpec

theorem zero2 : (![0, 0] : Fin 2 → Nat) = fun _ => 0 := funext fun a => by fin_cases a <;> rfl
theorem zero1 : (![0] : Fin 1 → Nat) = fun _ => 0 := funext fun a => by fin_cases a <;> rfl

/-- Entry (p, q) of the layer of two blocks of rows and copies of the weights and the bias is entry (r, q) of the layer
    of the whole arrays, when row p of each block is row r of its whole array. -/
theorem sage_block (A H : S50000x96.Idx → EReal) (WL : S96x96.Idx → EReal) (BL : S96.Idx → EReal)
    (WR : S96x96.Idx → EReal) (ab hb : S10000x96.Idx → EReal) (wl : S96x96.Idx → EReal) (bl : S96.Idx → EReal)
    (wr : S96x96.Idx → EReal) (r : Fin 50000) (p : Fin 10000) (q : Fin 96)
    (ha : ∀ k : Fin 96, ab (ix2 p k) = A (ix2 r k)) (hh : ∀ k : Fin 96, hb (ix2 p k) = H (ix2 r k))
    (hwl : wl = WL) (hbl : bl = BL) (hwr : wr = WR) :
    sage ab hb wl bl wr (ix2 p q) = sage A H WL BL WR (ix2 r q) := by
  subst hwl hbl hwr
  exact sage_of_rows ab hb A H wl bl wr p r q ha hh

variable (V : (c : Dev nD) → (b : Ref sig .tc) → Buf (Elt Ideal) ((c : Thread nD τ).loc b))

/-- The neighbourhood-mean layer of the arrays the region finds on entry. -/
def layerOut (c : Dev nD) : S50000x96.Idx → EReal :=
  sage (V c (Pipeline.arrRef spec1 0) : S50000x96.Idx → EReal) (V c (Pipeline.arrRef spec1 1) : S50000x96.Idx → EReal)
    (V c (Pipeline.arrRef spec1 2) : S96x96.Idx → EReal) (V c (Pipeline.arrRef spec1 3) : S96.Idx → EReal)
    (V c (Pipeline.arrRef spec1 4) : S96x96.Idx → EReal)

/-- The printed index maps over the five grid points: the two row blocks and the output block move with the point,
    the weights and the bias stay. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 1000000 in
/-- WHAT POINT t WRITES BACK is block t of the layer of the whole arrays. -/
theorem flushed (c : Dev nD) (t : Fin cfg1.N) :
    (dat1 (F := Ideal) V c).flushed 5 t = ((cfg1.win 5).blk t).view.read (Elt Ideal) (layerOut V c) := by
  show (cfg1.win 5).cut (grid1.coords t) ((dat1 V c).after 5 t) = _
  rw [after1_5]
  unfold out1_5
  rw [View.canon_unit_zero zero2]
  simp only [View.ld_unit_zero (S := S10000x96) zero2, View.ld_unit_zero (S := S96x96) zero2,
    View.ld_unit_zero (S := S96) zero1]
  rw [Cert.KPay1.pay1_eq]
  obtain ⟨e00, e01, e10, e11, e20, e21, e30, e40, e41, e50, e51⟩ := idx t
  have ht : t.val < 5 := by have h := t.isLt; have hN : cfg1.N = 5 := N_1; omega
  funext j
  obtain ⟨p, q, rfl⟩ : ∃ (p : Fin 10000) (q : Fin 96), j = ix2 p q := ⟨j 0, j 1, eq_ix2 j⟩
  have hr : t.val * 10000 + p.val < 50000 := by have := p.isLt; omega
  have hemb : ((cfg1.win 5).blk t).view.emb (ix2 p q) = ix2 (⟨t.val * 10000 + p.val, hr⟩ : Fin 50000) q := by
    funext a; apply Fin.ext
    match a with
    | ⟨0, _⟩ => show win1_5.index t (0 : Fin 2) * 10000 + 1 * p.val = t.val * 10000 + p.val; omega
    | ⟨1, _⟩ => show win1_5.index t (1 : Fin 2) * 96 + 1 * q.val = q.val; omega
  show sage (iblk1 V c 0 t) (iblk1 V c 1 t) (iblk1 V c 2 t) (iblk1 V c 3 t) (iblk1 V c 4 t) (ix2 p q)
    = layerOut V c (((cfg1.win 5).blk t).view.emb (ix2 p q))
  rw [hemb]
  refine sage_block _ _ _ _ _ _ _ _ _ _ ⟨t.val * 10000 + p.val, hr⟩ p q (fun k => ?_) (fun k => ?_)
    (funext fun y => ?_) (funext fun y => ?_) (funext fun y => ?_)
  · show V c (Pipeline.arrRef spec1 0) (((cfg1.win 0).blk t).view.emb (ix2 p k)) = _
    refine congrArg (V c (Pipeline.arrRef spec1 0)) ?_
    funext a; apply Fin.ext
    match a with
    | ⟨0, _⟩ => show win1_0.index t (0 : Fin 2) * 10000 + 1 * p.val = t.val * 10000 + p.val; omega
    | ⟨1, _⟩ => show win1_0.index t (1 : Fin 2) * 96 + 1 * k.val = k.val; omega
  · show V c (Pipeline.arrRef spec1 1) (((cfg1.win 1).blk t).view.emb (ix2 p k)) = _
    refine congrArg (V c (Pipeline.arrRef spec1 1)) ?_
    funext a; apply Fin.ext
    match a with
    | ⟨0, _⟩ => show win1_1.index t (0 : Fin 2) * 10000 + 1 * p.val = t.val * 10000 + p.val; omega
    | ⟨1, _⟩ => show win1_1.index t (1 : Fin 2) * 96 + 1 * k.val = k.val; omega
  · show V c (Pipeline.arrRef spec1 2) (((cfg1.win 2).blk t).view.emb y) = _
    refine congrArg (V c (Pipeline.arrRef spec1 2)) ?_
    funext a; apply Fin.ext
    match a with
    | ⟨0, _⟩ => show win1_2.index t (0 : Fin 2) * 96 + 1 * (y 0).val = (y 0).val; omega
    | ⟨1, _⟩ => show win1_2.index t (1 : Fin 2) * 96 + 1 * (y 1).val = (y 1).val; omega
  · show V c (Pipeline.arrRef spec1 3) (((cfg1.win 3).blk t).view.emb y) = _
    refine congrArg (V c (Pipeline.arrRef spec1 3)) ?_
    funext a; apply Fin.ext
    match a with
    | ⟨0, _⟩ => show win1_3.index t (0 : Fin 1) * 96 + 1 * (y 0).val = (y 0).val; omega
  · show V c (Pipeline.arrRef spec1 4) (((cfg1.win 4).blk t).view.emb y) = _
    refine congrArg (V c (Pipeline.arrRef spec1 4)) ?_
    funext a; apply Fin.ext
    match a with
    | ⟨0, _⟩ => show win1_4.index t (0 : Fin 2) * 96 + 1 * (y 0).val = (y 0).val; omega
    | ⟨1, _⟩ => show win1_4.index t (1 : Fin 2) * 96 + 1 * (y 1).val = (y 1).val; omega

/-- An index of the output array is in point t's block iff each coordinate is in the block's range on its axis. -/
theorem mem_blk (t : Fin cfg1.N) (i : S50000x96.Idx) :
    i ∈ ((cfg1.win 5).blk t).view.set ↔ ∀ a : Fin 2, win1_5.index t a * S10000x96.size a ≤ (i a).val
      ∧ (i a).val < win1_5.index t a * S10000x96.size a + S10000x96.size a := by
  show i ∈ ((View.whole main_v32).slice (win1_5.rect t)).set ↔ _
  rw [View.set_slice_whole, Rect.mem_set_unit]
  exact Iff.rfl

/-- Every row of the output lies in the block of the point numbered by its row divided by 10000. -/
theorem cover (i : S50000x96.Idx) :
    ∃ t : Fin cfg1.N, (cfg1.win 5).flush t = true ∧ i ∈ ((cfg1.win 5).blk t).view.set := by
  have hi0 : (i 0).val < 50000 := (i 0).isLt
  have hi1 : (i 1).val < 96 := (i 1).isLt
  have hN : cfg1.N = 5 := N_1
  let t : Fin cfg1.N := ⟨(i 0).val / 10000, by rw [hN]; omega⟩
  obtain ⟨e00, e01, e10, e11, e20, e21, e30, e40, e41, e50, e51⟩ := idx t
  have htv : t.val = (i 0).val / 10000 := rfl
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 96 ≤ (i 1).val ∧ (i 1).val < win1_5.index t (1 : Fin 2) * 96 + 96
    omega

/-- THE REGION'S OUTPUT ARRAY after the region: the neighbourhood-mean layer of the arrays found on entry (aggregated
    rows, own rows, the weights for the aggregated rows, the bias, the weights for the own rows). -/
theorem region1 (c : Dev nD) :
    (dat1 (F := Ideal) V c).arrAt 5 cfg1.N
      = sage (V c (Pipeline.arrRef spec1 0) : S50000x96.Idx → EReal) (V c (Pipeline.arrRef spec1 1) : S50000x96.Idx → EReal)
          (V c (Pipeline.arrRef spec1 2) : S96x96.Idx → EReal) (V c (Pipeline.arrRef spec1 3) : S96.Idx → EReal)
          (V c (Pipeline.arrRef spec1 4) : S96x96.Idx → EReal) :=
  (dat1 (F := Ideal) V c).arrAt_eq_of_cover 5 (layerOut V c) (fun t _ => flushed V c t) cover

end Cert.KRegion1

end
-- ==== Proof.LibTypedRef.lean ====
/-
  Contents moved to a typed reference's own buffer type and back.

  A typed reference carries the type T of the tensor value its buffer holds, with a proof that the buffer's declared type is
  T; contents at T are moved to contents of the buffer along that proof, and back. Moving there and back again is the
  identity, whatever the proof is: so an operation applied to contents that were put into its operands' buffers by these
  moves acts on the original contents.
-/
import Idealize.ShloMosaic.Lib.StableHlo

namespace Idealize.ShloMosaic.TypedRef

open Idealize.ShloMosaic Idealize.ShloMosaic.StableHlo

variable {sig : RefSig} {Val : EltTy → Type} {T : BufTy}

/-- Into the buffer's type and back. -/
theorem ofBuf_toBuf (x : TRef sig T) (w : T.Contents Val) : x.ofBuf (x.toBuf w) = w := by
  obtain ⟨r, h, d, u⟩ := x
  subst h
  rfl

/-- Out of the buffer's type and back into it. -/
theorem toBuf_ofBuf (x : TRef sig T) (v : x.ref.ty.Contents Val) : x.toBuf (x.ofBuf v) = v := by
  obtain ⟨r, h, d, u⟩ := x
  subst h
  rfl

end Idealize.ShloMosaic.TypedRef
-- ==== Proof.Chain1.lean ====
/-
  The idealized kernel program from the end of its first region to the end of its second.

  Between the two regions the host forms the neighbourhood mean of the features the first region left (gathering along
  the edge sources, summing at the targets, dividing by the floored count, zero where no edge arrives) and cuts layer
  0's weights and bias out of the stacked parameters; the second region then leaves one neighbourhood-mean layer of
  those features in its output array. The edge rows, the counts and the parameter arrays are not written on the way.
-/
import proofs.«109989_j5858335391843_2_alg».proof.Proof.Chain0
import proofs.«109989_j5858335391843_2_alg».proof.Proof.KRegion1
import Idealize.ShloMosaic.Lib.StableHlo.Run
import proofs.«109989_j5858335391843_2_alg».proof.Proof.LibTypedRef

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.SageSpec Cert.SageHost Cert.KernelIdeal.RegionValue

variable (m : (ℓ : Loc nD τ sig) → Buf (Elt Ideal) ℓ) (ρ : Dev nD → PrngReg) (c : Dev nD)

/-- A buffer read after the host operations between regions 0 and 1. -/
macro "read_stage1" : tactic => `(tactic| (dsimp only [W5, W4, W3, hostOps1_2, hostOps1_1, hostOps1]; after_results))

/-! ## Contents at a buffer's own type

The outlined select reads and writes its operands through typed references, which move contents between a tensor
value's type and its buffer's declared type; for these buffers the two types are the same, so the moves are the
identity. -/

theorem to_v25 (p1 p2 p3) (v : (⟨S50000x96, .f32⟩ : BufTy).Contents (Elt Ideal)) :
    (TRef.of (sig := sig) (T := ⟨S50000x96, .f32⟩) main_v25 p1 p2 p3).toBuf v = v := rfl
theorem of_v22 (p1 p2 p3) (v : main_v22.ty.Contents (Elt Ideal)) :
    (TRef.of (sig := sig) (T := ⟨S50000x1, .i1⟩) main_v22 p1 p2 p3).ofBuf v = v := rfl
theorem of_v24 (p1 p2 p3) (v : main_v24.ty.Contents (Elt Ideal)) :
    (TRef.of (sig := sig) (T := ⟨S50000x96, .f32⟩) main_v24 p1 p2 p3).ofBuf v = v := rfl
theorem of_cst_5 (p1 p2 p3) (v : main_cst_5.ty.Contents (Elt Ideal)) :
    (TRef.of (sig := sig) (T := ⟨S_, .f32⟩) main_cst_5 p1 p2 p3).ofBuf v = v := rfl

/-! ## On entry to region 1 -/

set_option maxHeartbeats 1000000 in
/-- The neighbourhood mean of the features the previous region left. -/
theorem W5_v25 : W5 m ρ c (Proc.devRef .tc main_v25) = meanOf (m ((c : Thread nD τ).loc main_arg1)) (W2 m ρ c (Proc.devRef .tc main_v10)) := by
  dsimp only [W5, W4, W3, hostOps1_2, hostOps1_1, hostOps1]
  after_results_simp
  simp only [Idealize.ShloMosaic.TypedRef.ofBuf_toBuf, to_v25, of_v22, of_v24, of_cst_5]
  rw [W2_v1 m ρ c, W2_v3 m ρ c, W2_v7 m ρ c, W2_v9 m ρ c]
  rfl
theorem W5_v10 : W5 m ρ c (Proc.devRef .tc main_v10) = W2 m ρ c (Proc.devRef .tc main_v10) := by read_stage1 <;> rfl
theorem W5_v27 : W5 m ρ c (Proc.devRef .tc main_v27) = wOf0 (m ((c : Thread nD τ).loc main_arg4)) := by
  read_stage1
  rw [W2_arg4 m ρ c]
  rfl
theorem W5_v29 : W5 m ρ c (Proc.devRef .tc main_v29) = bOf0 (m ((c : Thread nD τ).loc main_arg5)) := by
  read_stage1
  rw [W2_arg5 m ρ c]
  rfl
theorem W5_v31 : W5 m ρ c (Proc.devRef .tc main_v31) = wOf0 (m ((c : Thread nD τ).loc main_arg6)) := by
  read_stage1
  rw [W2_arg6 m ρ c]
  rfl

/-! ## After region 1 -/

/-- Region 1's output: one neighbourhood-mean layer on the features the previous region left. -/
theorem W6_v32 : W6 m ρ c (Proc.devRef .tc main_v32)
    = (layer (m ((c : Thread nD τ).loc main_arg1)) (dense (m ((c : Thread nD τ).loc main_arg0)) (m ((c : Thread nD τ).loc main_arg2)) (m ((c : Thread nD τ).loc main_arg3))) (wOf0 (m ((c : Thread nD τ).loc main_arg4))) (bOf0 (m ((c : Thread nD τ).loc main_arg5))) (wOf0 (m ((c : Thread nD τ).loc main_arg6)))) :=
  (W6_arr m ρ c 5).trans ((Cert.KRegion1.region1 (V5 m ρ) c).trans
    (sage_congr ((W5_v25 m ρ c).trans (congrArg (meanOf (m ((c : Thread nD τ).loc main_arg1))) (W2_v10 m ρ c))) ((W5_v10 m ρ c).trans (W2_v10 m ρ c))
      (W5_v27 m ρ c) (W5_v29 m ρ c) (W5_v31 m ρ c)))
theorem W6_v1 : W6 m ρ c (Proc.devRef .tc main_v1) = srcOf (m ((c : Thread nD τ).loc main_arg1)) :=
  (W6_of_ne m ρ c main_v1 (by decide)).trans (by read_stage1; exact W2_v1 m ρ c)
theorem W6_v3 : W6 m ρ c (Proc.devRef .tc main_v3) = dstOf (m ((c : Thread nD τ).loc main_arg1)) :=
  (W6_of_ne m ρ c main_v3 (by decide)).trans (by read_stage1; exact W2_v3 m ρ c)
theorem W6_v7 : W6 m ρ c (Proc.devRef .tc main_v7) = cntOf (m ((c : Thread nD τ).loc main_arg1)) :=
  (W6_of_ne m ρ c main_v7 (by decide)).trans (by read_stage1; exact W2_v7 m ρ c)
theorem W6_v9 : W6 m ρ c (Proc.devRef .tc main_v9) = cntSafeOf (m ((c : Thread nD τ).loc main_arg1)) :=
  (W6_of_ne m ρ c main_v9 (by decide)).trans (by read_stage1; exact W2_v9 m ρ c)
theorem W6_arg4 : W6 m ρ c (Proc.devRef .tc main_arg4) = m ((c : Thread nD τ).loc main_arg4) :=
  (W6_of_ne m ρ c main_arg4 (by decide)).trans (by read_stage1; exact W2_arg4 m ρ c)
theorem W6_arg5 : W6 m ρ c (Proc.devRef .tc main_arg5) = m ((c : Thread nD τ).loc main_arg5) :=
  (W6_of_ne m ρ c main_arg5 (by decide)).trans (by read_stage1; exact W2_arg5 m ρ c)
theorem W6_arg6 : W6 m ρ c (Proc.devRef .tc main_arg6) = m ((c : Thread nD τ).loc main_arg6) :=
  (W6_of_ne m ρ c main_arg6 (by decide)).trans (by read_stage1; exact W2_arg6 m ρ c)
theorem W6_arg7 : W6 m ρ c (Proc.devRef .tc main_arg7) = m ((c : Thread nD τ).loc main_arg7) :=
  (W6_of_ne m ρ c main_arg7 (by decide)).trans (by read_stage1; exact W2_arg7 m ρ c)
theorem W6_arg8 : W6 m ρ c (Proc.devRef .tc main_arg8) = m ((c : Thread nD τ).loc main_arg8) :=
  (W6_of_ne m ρ c main_arg8 (by decide)).trans (by read_stage1; exact W2_arg8 m ρ c)

end Cert.KernelIdeal.Chain

end
-- ==== Proof.KPay2.lean ====
/-
  One block of the neighbourhood-mean kernel computes the neighbourhood-mean layer of its operands.

  The block's arithmetic takes a block of aggregated rows a and of own rows h (10000 rows of 96 entries each), two
  96×96 weight arrays wl and wr and a bias vector bl of length 96. It multiplies a by wl and h by wr, each product
  accumulated into an array of zeros, lays the bias out as one row and repeats that row down the 10000 rows, adds the
  three arrays in the grouping ((a·wl + bias) + h·wr), and takes the maximum with an array filled with the float zero.
  Read at entry (p, q): a product into zeros is the plain sum over k of left(p, k) · right(k, q); a reshape of an array
  to its own shape changes nothing; the bias row repeated down the rows reads bl(q) at every row p; the array filled with
  zero reads the zero word. So entry (p, q) is max((∑ₖ a(p,k)·wl(k,q) + bl(q)) + ∑ₖ h(p,k)·wr(k,q), 0), which is the
  definition of the layer, in the same grouping. Nothing is assumed about the values: the sums are taken as they stand
  on the extended reals.
-/
import proofs.«109989_j5858335391843_2_alg».proof.Proof.Gen.KernelIdeal.Skeleton
import proofs.«109989_j5858335391843_2_alg».proof.Proof.Spec
import Idealize.ShloMosaic.Lib.ValueLayout
import Idealize.ShloMosaic.Lib.Pipeline.Value

noncomputable section

namespace Cert.KPay2

open Idealize.ShloMosaic Idealize.ShloMosaic.ValueIdx Idealize.ShloMosaic.MatProd Idealize.ShloMosaic.DotPlain
open Cert.KernelIdeal

/-- The block arithmetic of the neighbourhood-mean kernel is the neighbourhood-mean layer (operands in the kernel's
    order: aggregated rows, own rows, wl, wr, bias; the layer takes the bias before wr). -/
theorem pay2_eq (v0 v2 : Vec Ideal S10000x96 .f32) (v4 v6 : Vec Ideal S96x96 .f32) (v9 : Vec Ideal S96 .f32) :
    Gen.k2_pay1 (F := Ideal) v0 v2 v4 v6 v9 = Cert.SageSpec.sage v0 v2 v4 v9 v6 := by
  funext i
  obtain ⟨p, q, rfl⟩ : ∃ (p : Fin 10000) (q : Fin 96), i = ix2 p q := ⟨i 0, i 1, eq_ix2 i⟩
  rw [Cert.SageSpec.sage_apply]
  unfold Gen.k2_pay1
  -- the maximum, the two sums and the operands at the entry
  show max
      ((matmul dot_S10000x96_S96x96_S10000x96_1_0_0_1_n_n (some .fp32) (shapeCast S10000x96 v0 _) (shapeCast S96x96 v4 _)
            (constant (F := Ideal) S10000x96 .f32 0x00000000#32) (ix2 p q)
          + broadcastTo S10000x96 (shapeCast S1x96 (shapeCast S96 v9 _) _) _ (ix2 p q))
        + matmul dot_S10000x96_S96x96_S10000x96_1_0_0_1_n_n (some .fp32) (shapeCast S10000x96 v2 _) (shapeCast S96x96 v6 _)
            (constant (F := Ideal) S10000x96 .f32 0x00000000#32) (ix2 p q))
      (Ideal.ofBits .f32 0x00000000#32) = _
  -- a reshape to the same shape is the identity
  rw [shapeCast_self v0, shapeCast_self v2, shapeCast_self v4, shapeCast_self v6, shapeCast_self v9]
  -- the two products into zeros, and the bias row read at (p, q)
  rw [MatProd.matmul_zero_apply ⟨rfl, rfl, rfl, rfl, rfl, rfl⟩ (some .fp32) v0 v4 (ix2 p q),
    MatProd.matmul_zero_apply ⟨rfl, rfl, rfl, rfl, rfl, rfl⟩ (some .fp32) v2 v6 (ix2 p q),
    broadcastTo_1b_ab_apply, shapeCast_a_1a_apply]

end Cert.KPay2

end
-- ==== Proof.KRegion2.lean ====
/-
  What a neighbourhood-mean region leaves in its output array, as one function of the arrays it finds on entry.

  The region walks five grid points. Point t fetches rows t·10000 … t·10000 + 9999 of the array of aggregated rows and
  the same rows of the array of own rows, and the two weight arrays and the bias whole; it writes back the
  neighbourhood-mean layer of those two blocks of rows as rows t·10000 … t·10000 + 9999 of the output. Entry (i, j) of
  the layer uses row i of the aggregated rows and row i of the own rows only, so each written block is that block of
  rows of the layer of the WHOLE arrays. The five blocks tile the 50000 rows (row r lies in the block of point
  r / 10000), so the output array ends holding the layer of the whole arrays.
-/
import proofs.«109989_j5858335391843_2_alg».proof.Proof.Gen.KernelIdeal.Frame
import proofs.«109989_j5858335391843_2_alg».proof.Proof.KPay2

set_option maxRecDepth 16384

noncomputable section

namespace Cert.KRegion2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageSpec

theorem zero2 : (![0, 0] : Fin 2 → Nat) = fun _ => 0 := funext fun a => by fin_cases a <;> rfl
theorem zero1 : (![0] : Fin 1 → Nat) = fun _ => 0 := funext fun a => by fin_cases a <;> rfl

/-- Entry (p, q) of the layer of two blocks of rows and copies of the weights and the bias is entry (r, q) of the layer
    of the whole arrays, when row p of each block is row r of its whole array. -/
theorem sage_block (A H : S50000x96.Idx → EReal) (WL : S96x96.Idx → EReal) (BL : S96.Idx → EReal)
    (WR : S96x96.Idx → EReal) (ab hb : S10000x96.Idx → EReal) (wl : S96x96.Idx → EReal) (bl : S96.Idx → EReal)
    (wr : S96x96.Idx → EReal) (r : Fin 50000) (p : Fin 10000) (q : Fin 96)
    (ha : ∀ k : Fin 96, ab (ix2 p k) = A (ix2 r k)) (hh : ∀ k : Fin 96, hb (ix2 p k) = H (ix2 r k))
    (hwl : wl = WL) (hbl : bl = BL) (hwr : wr = WR) :
    sage ab hb wl bl wr (ix2 p q) = sage A H WL BL WR (ix2 r q) := by
  subst hwl hbl hwr
  exact sage_of_rows ab hb A H wl bl wr p r q ha hh

variable (V : (c : Dev nD) → (b : Ref sig .tc) → Buf (Elt Ideal) ((c : Thread nD τ).loc b))

/-- The neighbourhood-mean layer of the arrays the region finds on entry. -/
def layerOut (c : Dev nD) : S50000x96.Idx → EReal :=
  sage (V c (Pipeline.arrRef spec2 0) : S50000x96.Idx → EReal) (V c (Pipeline.arrRef spec2 1) : S50000x96.Idx → EReal)
    (V c (Pipeline.arrRef spec2 2) : S96x96.Idx → EReal) (V c (Pipeline.arrRef spec2 3) : S96.Idx → EReal)
    (V c (Pipeline.arrRef spec2 4) : S96x96.Idx → EReal)

/-- The printed index maps over the five grid points: the two row blocks and the output block move with the point,
    the weights and the bias stay. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 1000000 in
/-- WHAT POINT t WRITES BACK is block t of the layer of the whole arrays. -/
theorem flushed (c : Dev nD) (t : Fin cfg2.N) :
    (dat2 (F := Ideal) V c).flushed 5 t = ((cfg2.win 5).blk t).view.read (Elt Ideal) (layerOut V c) := by
  show (cfg2.win 5).cut (grid2.coords t) ((dat2 V c).after 5 t) = _
  rw [after2_5]
  unfold out2_5
  rw [View.canon_unit_zero zero2]
  simp only [View.ld_unit_zero (S := S10000x96) zero2, View.ld_unit_zero (S := S96x96) zero2,
    View.ld_unit_zero (S := S96) zero1]
  rw [Cert.KPay2.pay2_eq]
  obtain ⟨e00, e01, e10, e11, e20, e21, e30, e40, e41, e50, e51⟩ := idx t
  have ht : t.val < 5 := by have h := t.isLt; have hN : cfg2.N = 5 := N_2; omega
  funext j
  obtain ⟨p, q, rfl⟩ : ∃ (p : Fin 10000) (q : Fin 96), j = ix2 p q := ⟨j 0, j 1, eq_ix2 j⟩
  have hr : t.val * 10000 + p.val < 50000 := by have := p.isLt; omega
  have hemb : ((cfg2.win 5).blk t).view.emb (ix2 p q) = ix2 (⟨t.val * 10000 + p.val, hr⟩ : Fin 50000) q := by
    funext a; apply Fin.ext
    match a with
    | ⟨0, _⟩ => show win2_5.index t (0 : Fin 2) * 10000 + 1 * p.val = t.val * 10000 + p.val; omega
    | ⟨1, _⟩ => show win2_5.index t (1 : Fin 2) * 96 + 1 * q.val = q.val; omega
  show sage (iblk2 V c 0 t) (iblk2 V c 1 t) (iblk2 V c 2 t) (iblk2 V c 3 t) (iblk2 V c 4 t) (ix2 p q)
    = layerOut V c (((cfg2.win 5).blk t).view.emb (ix2 p q))
  rw [hemb]
  refine sage_block _ _ _ _ _ _ _ _ _ _ ⟨t.val * 10000 + p.val, hr⟩ p q (fun k => ?_) (fun k => ?_)
    (funext fun y => ?_) (funext fun y => ?_) (funext fun y => ?_)
  · show V c (Pipeline.arrRef spec2 0) (((cfg2.win 0).blk t).view.emb (ix2 p k)) = _
    refine congrArg (V c (Pipeline.arrRef spec2 0)) ?_
    funext a; apply Fin.ext
    match a with
    | ⟨0, _⟩ => show win2_0.index t (0 : Fin 2) * 10000 + 1 * p.val = t.val * 10000 + p.val; omega
    | ⟨1, _⟩ => show win2_0.index t (1 : Fin 2) * 96 + 1 * k.val = k.val; omega
  · show V c (Pipeline.arrRef spec2 1) (((cfg2.win 1).blk t).view.emb (ix2 p k)) = _
    refine congrArg (V c (Pipeline.arrRef spec2 1)) ?_
    funext a; apply Fin.ext
    match a with
    | ⟨0, _⟩ => show win2_1.index t (0 : Fin 2) * 10000 + 1 * p.val = t.val * 10000 + p.val; omega
    | ⟨1, _⟩ => show win2_1.index t (1 : Fin 2) * 96 + 1 * k.val = k.val; omega
  · show V c (Pipeline.arrRef spec2 2) (((cfg2.win 2).blk t).view.emb y) = _
    refine congrArg (V c (Pipeline.arrRef spec2 2)) ?_
    funext a; apply Fin.ext
    match a with
    | ⟨0, _⟩ => show win2_2.index t (0 : Fin 2) * 96 + 1 * (y 0).val = (y 0).val; omega
    | ⟨1, _⟩ => show win2_2.index t (1 : Fin 2) * 96 + 1 * (y 1).val = (y 1).val; omega
  · show V c (Pipeline.arrRef spec2 3) (((cfg2.win 3).blk t).view.emb y) = _
    refine congrArg (V c (Pipeline.arrRef spec2 3)) ?_
    funext a; apply Fin.ext
    match a with
    | ⟨0, _⟩ => show win2_3.index t (0 : Fin 1) * 96 + 1 * (y 0).val = (y 0).val; omega
  · show V c (Pipeline.arrRef spec2 4) (((cfg2.win 4).blk t).view.emb y) = _
    refine congrArg (V c (Pipeline.arrRef spec2 4)) ?_
    funext a; apply Fin.ext
    match a with
    | ⟨0, _⟩ => show win2_4.index t (0 : Fin 2) * 96 + 1 * (y 0).val = (y 0).val; omega
    | ⟨1, _⟩ => show win2_4.index t (1 : Fin 2) * 96 + 1 * (y 1).val = (y 1).val; omega

/-- An index of the output array is in point t's block iff each coordinate is in the block's range on its axis. -/
theorem mem_blk (t : Fin cfg2.N) (i : S50000x96.Idx) :
    i ∈ ((cfg2.win 5).blk t).view.set ↔ ∀ a : Fin 2, win2_5.index t a * S10000x96.size a ≤ (i a).val
      ∧ (i a).val < win2_5.index t a * S10000x96.size a + S10000x96.size a := by
  show i ∈ ((View.whole main_v54).slice (win2_5.rect t)).set ↔ _
  rw [View.set_slice_whole, Rect.mem_set_unit]
  exact Iff.rfl

/-- Every row of the output lies in the block of the point numbered by its row divided by 10000. -/
theorem cover (i : S50000x96.Idx) :
    ∃ t : Fin cfg2.N, (cfg2.win 5).flush t = true ∧ i ∈ ((cfg2.win 5).blk t).view.set := by
  have hi0 : (i 0).val < 50000 := (i 0).isLt
  have hi1 : (i 1).val < 96 := (i 1).isLt
  have hN : cfg2.N = 5 := N_2
  let t : Fin cfg2.N := ⟨(i 0).val / 10000, by rw [hN]; omega⟩
  obtain ⟨e00, e01, e10, e11, e20, e21, e30, e40, e41, e50, e51⟩ := idx t
  have htv : t.val = (i 0).val / 10000 := rfl
  refine ⟨t, flush2_5 t, ?_⟩
  rw [mem_blk]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 96 ≤ (i 1).val ∧ (i 1).val < win2_5.index t (1 : Fin 2) * 96 + 96
    omega

/-- THE REGION'S OUTPUT ARRAY after the region: the neighbourhood-mean layer of the arrays found on entry (aggregated
    rows, own rows, the weights for the aggregated rows, the bias, the weights for the own rows). -/
theorem region2 (c : Dev nD) :
    (dat2 (F := Ideal) V c).arrAt 5 cfg2.N
      = sage (V c (Pipeline.arrRef spec2 0) : S50000x96.Idx → EReal) (V c (Pipeline.arrRef spec2 1) : S50000x96.Idx → EReal)
          (V c (Pipeline.arrRef spec2 2) : S96x96.Idx → EReal) (V c (Pipeline.arrRef spec2 3) : S96.Idx → EReal)
          (V c (Pipeline.arrRef spec2 4) : S96x96.Idx → EReal) :=
  (dat2 (F := Ideal) V c).arrAt_eq_of_cover 5 (layerOut V c) (fun t _ => flushed V c t) cover

end Cert.KRegion2

end
-- ==== Proof.Chain2.lean ====
/-
  The idealized kernel program from the end of its second region to the end of its third: the same step as before one
  layer further on. The host forms the neighbourhood mean of the features the second region left and cuts layer 1's
  weights and bias out of the stacked parameters; the third region leaves one neighbourhood-mean layer of those
  features in its output array.
-/
import proofs.«109989_j5858335391843_2_alg».proof.Proof.Chain1
import proofs.«109989_j5858335391843_2_alg».proof.Proof.KRegion2
import Idealize.ShloMosaic.Lib.StableHlo.Run
import proofs.«109989_j5858335391843_2_alg».proof.Proof.LibTypedRef

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.SageSpec Cert.SageHost Cert.KernelIdeal.RegionValue

variable (m : (ℓ : Loc nD τ sig) → Buf (Elt Ideal) ℓ) (ρ : Dev nD → PrngReg) (c : Dev nD)

/-- A buffer read after the host operations between regions 1 and 2. -/
macro "read_stage2" : tactic => `(tactic| (dsimp only [W9, W8, W7, hostOps2_2, hostOps2_1, hostOps2]; after_results))

/-! ## Contents at a buffer's own type

The outlined select reads and writes its operands through typed references, which move contents between a tensor
value's type and its buffer's declared type; for these buffers the two types are the same, so the moves are the
identity. -/

theorem to_v47 (p1 p2 p3) (v : (⟨S50000x96, .f32⟩ : BufTy).Contents (Elt Ideal)) :
    (TRef.of (sig := sig) (T := ⟨S50000x96, .f32⟩) main_v47 p1 p2 p3).toBuf v = v := rfl
theorem of_v44 (p1 p2 p3) (v : main_v44.ty.Contents (Elt Ideal)) :
    (TRef.of (sig := sig) (T := ⟨S50000x1, .i1⟩) main_v44 p1 p2 p3).ofBuf v = v := rfl
theorem of_v46 (p1 p2 p3) (v : main_v46.ty.Contents (Elt Ideal)) :
    (TRef.of (sig := sig) (T := ⟨S50000x96, .f32⟩) main_v46 p1 p2 p3).ofBuf v = v := rfl
theorem of_cst_10 (p1 p2 p3) (v : main_cst_10.ty.Contents (Elt Ideal)) :
    (TRef.of (sig := sig) (T := ⟨S_, .f32⟩) main_cst_10 p1 p2 p3).ofBuf v = v := rfl

/-! ## On entry to region 2 -/

set_option maxHeartbeats 1000000 in
/-- The neighbourhood mean of the features the previous region left. -/
theorem W9_v47 : W9 m ρ c (Proc.devRef .tc main_v47) = meanOf (m ((c : Thread nD τ).loc main_arg1)) (W6 m ρ c (Proc.devRef .tc main_v32)) := by
  dsimp only [W9, W8, W7, hostOps2_2, hostOps2_1, hostOps2]
  after_results_simp
  simp only [Idealize.ShloMosaic.TypedRef.ofBuf_toBuf, to_v47, of_v44, of_v46, of_cst_10]
  rw [W6_v1 m ρ c, W6_v3 m ρ c, W6_v7 m ρ c, W6_v9 m ρ c]
  rfl
theorem W9_v32 : W9 m ρ c (Proc.devRef .tc main_v32) = W6 m ρ c (Proc.devRef .tc main_v32) := by read_stage2 <;> rfl
theorem W9_v49 : W9 m ρ c (Proc.devRef .tc main_v49) = wOf1 (m ((c : Thread nD τ).loc main_arg4)) := by
  read_stage2
  rw [W6_arg4 m ρ c]
  rfl
theorem W9_v51 : W9 m ρ c (Proc.devRef .tc main_v51) = bOf1 (m ((c : Thread nD τ).loc main_arg5)) := by
  read_stage2
  rw [W6_arg5 m ρ c]
  rfl
theorem W9_v53 : W9 m ρ c (Proc.devRef .tc main_v53) = wOf1 (m ((c : Thread nD τ).loc main_arg6)) := by
  read_stage2
  rw [W6_arg6 m ρ c]
  rfl

/-! ## After region 2 -/

/-- Region 2's output: one neighbourhood-mean layer on the features the previous region left. -/
theorem W10_v54 : W10 m ρ c (Proc.devRef .tc main_v54)
    = (layer (m ((c : Thread nD τ).loc main_arg1)) (layer (m ((c : Thread nD τ).loc main_arg1)) (dense (m ((c : Thread nD τ).loc main_arg0)) (m ((c : Thread nD τ).loc main_arg2)) (m ((c : Thread nD τ).loc main_arg3))) (wOf0 (m ((c : Thread nD τ).loc main_arg4))) (bOf0 (m ((c : Thread nD τ).loc main_arg5))) (wOf0 (m ((c : Thread nD τ).loc main_arg6)))) (wOf1 (m ((c : Thread nD τ).loc main_arg4))) (bOf1 (m ((c : Thread nD τ).loc main_arg5))) (wOf1 (m ((c : Thread nD τ).loc main_arg6)))) :=
  (W10_arr m ρ c 5).trans ((Cert.KRegion2.region2 (V9 m ρ) c).trans
    (sage_congr ((W9_v47 m ρ c).trans (congrArg (meanOf (m ((c : Thread nD τ).loc main_arg1))) (W6_v32 m ρ c))) ((W9_v32 m ρ c).trans (W6_v32 m ρ c))
      (W9_v49 m ρ c) (W9_v51 m ρ c) (W9_v53 m ρ c)))
theorem W10_v1 : W10 m ρ c (Proc.devRef .tc main_v1) = srcOf (m ((c : Thread nD τ).loc main_arg1)) :=
  (W10_of_ne m ρ c main_v1 (by decide)).trans (by read_stage2; exact W6_v1 m ρ c)
theorem W10_v3 : W10 m ρ c (Proc.devRef .tc main_v3) = dstOf (m ((c : Thread nD τ).loc main_arg1)) :=
  (W10_of_ne m ρ c main_v3 (by decide)).trans (by read_stage2; exact W6_v3 m ρ c)
theorem W10_v7 : W10 m ρ c (Proc.devRef .tc main_v7) = cntOf (m ((c : Thread nD τ).loc main_arg1)) :=
  (W10_of_ne m ρ c main_v7 (by decide)).trans (by read_stage2; exact W6_v7 m ρ c)
theorem W10_v9 : W10 m ρ c (Proc.devRef .tc main_v9) = cntSafeOf (m ((c : Thread nD τ).loc main_arg1)) :=
  (W10_of_ne m ρ c main_v9 (by decide)).trans (by read_stage2; exact W6_v9 m ρ c)
theorem W10_arg4 : W10 m ρ c (Proc.devRef .tc main_arg4) = m ((c : Thread nD τ).loc main_arg4) :=
  (W10_of_ne m ρ c main_arg4 (by decide)).trans (by read_stage2; exact W6_arg4 m ρ c)
theorem W10_arg5 : W10 m ρ c (Proc.devRef .tc main_arg5) = m ((c : Thread nD τ).loc main_arg5) :=
  (W10_of_ne m ρ c main_arg5 (by decide)).trans (by read_stage2; exact W6_arg5 m ρ c)
theorem W10_arg6 : W10 m ρ c (Proc.devRef .tc main_arg6) = m ((c : Thread nD τ).loc main_arg6) :=
  (W10_of_ne m ρ c main_arg6 (by decide)).trans (by read_stage2; exact W6_arg6 m ρ c)
theorem W10_arg7 : W10 m ρ c (Proc.devRef .tc main_arg7) = m ((c : Thread nD τ).loc main_arg7) :=
  (W10_of_ne m ρ c main_arg7 (by decide)).trans (by read_stage2; exact W6_arg7 m ρ c)
theorem W10_arg8 : W10 m ρ c (Proc.devRef .tc main_arg8) = m ((c : Thread nD τ).loc main_arg8) :=
  (W10_of_ne m ρ c main_arg8 (by decide)).trans (by read_stage2; exact W6_arg8 m ρ c)

end Cert.KernelIdeal.Chain

end
-- ==== Proof.KPay3.lean ====
/-
  One block of the layer-and-read-out kernel computes the linear read-out of the neighbourhood-mean layer.

  The block's arithmetic first forms, from a block of aggregated rows a and own rows h (10000 rows of 96 entries), the
  weights wl, wr (96×96) and the bias bl (length 96), exactly the array the neighbourhood-mean kernel forms: the layer
  max((a·wl + bl) + h·wr, 0) of those operands. It then multiplies that array by a 96×128 weight array w, accumulated
  into zeros, lays a bias vector b of length 128 out as one row repeated down the 10000 rows, and adds. Read at entry
  (p, q): the product into zeros is the sum over k of layer(p, k) · w(k, q), the repeated bias row reads b(q), so the
  entry is ∑ₖ layer(p,k)·w(k,q) + b(q): the read-out of the layer. The sums stand as they are on the extended reals.
-/
import proofs.«109989_j5858335391843_2_alg».proof.Proof.KPay1

noncomputable section

namespace Cert.KPay3

open Idealize.ShloMosaic Idealize.ShloMosaic.ValueIdx Idealize.ShloMosaic.MatProd Idealize.ShloMosaic.DotPlain
open Cert.KernelIdeal

/-- The block arithmetic of the layer-and-read-out kernel is the read-out of the neighbourhood-mean layer (operands in
    the kernel's order: aggregated rows, own rows, wl, wr, bias, read-out weights, read-out bias). -/
theorem pay3_eq (v0 v2 : Vec Ideal S10000x96 .f32) (v4 v6 : Vec Ideal S96x96 .f32) (v9 : Vec Ideal S96 .f32)
    (v18 : Vec Ideal S96x128 .f32) (v21 : Vec Ideal S128 .f32) :
    Gen.k3_pay1 (F := Ideal) v0 v2 v4 v6 v9 v18 v21
      = Cert.SageSpec.affine (Cert.SageSpec.sage v0 v2 v4 v9 v6) v18 v21 := by
  funext i
  obtain ⟨p, q, rfl⟩ : ∃ (p : Fin 10000) (q : Fin 128), i = ix2 p q := ⟨i 0, i 1, eq_ix2 i⟩
  rw [Cert.SageSpec.affine_apply]
  unfold Gen.k3_pay1
  -- the left operand of the last product is, term for term, the block arithmetic of the layer kernel
  show matmul dot_S10000x96_S96x128_S10000x128_1_0_0_1_n_n (some .fp32) (Gen.k1_pay1 (F := Ideal) v0 v2 v4 v6 v9)
        (shapeCast S96x128 v18 _) (constant (F := Ideal) S10000x128 .f32 0x00000000#32) (ix2 p q)
      + broadcastTo S10000x128 (shapeCast S1x128 (shapeCast S128 v21 _) _) _ (ix2 p q) = _
  rw [shapeCast_self v18, shapeCast_self v21]
  rw [MatProd.matmul_zero_apply ⟨rfl, rfl, rfl, rfl, rfl, rfl⟩ (some .fp32) (Gen.k1_pay1 (F := Ideal) v0 v2 v4 v6 v9) v18 (ix2 p q),
    broadcastTo_1b_ab_apply, shapeCast_a_1a_apply, Cert.KPay1.pay1_eq]

end Cert.KPay3

end
-- ==== Proof.KRegion3.lean ====
/-
  What the layer-and-read-out region leaves in its output array, as one function of the arrays it finds on entry.

  The region walks five grid points. Point t fetches rows t·10000 … t·10000 + 9999 of the array of aggregated rows and
  the same rows of the array of own rows, and, whole, the two layer weight arrays, the layer bias, the read-out weights
  (96×128) and the read-out bias (length 128); it writes back the read-out of the neighbourhood-mean layer of those two
  blocks of rows as rows t·10000 … t·10000 + 9999 of the output (128 columns). Entry (i, j) of the read-out uses row i
  of the layer only, and row i of the layer uses row i of the aggregated rows and row i of the own rows only; so each
  written block is that block of rows of the read-out of the layer of the WHOLE arrays. The five blocks tile the 50000
  rows (row r lies in the block of point r / 10000), so the output array ends holding the read-out of the layer of the
  whole arrays.
-/
import proofs.«109989_j5858335391843_2_alg».proof.Proof.Gen.KernelIdeal.Frame
import proofs.«109989_j5858335391843_2_alg».proof.Proof.KPay3

set_option maxRecDepth 16384

noncomputable section

namespace Cert.KRegion3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageSpec

theorem zero2 : (![0, 0] : Fin 2 → Nat) = fun _ => 0 := funext fun a => by fin_cases a <;> rfl
theorem zero1 : (![0] : Fin 1 → Nat) = fun _ => 0 := funext fun a => by fin_cases a <;> rfl

/-- Entry (p, q) of the read-out of the layer of two blocks of rows, with copies of every weight and bias, is entry
    (r, q) of the read-out of the layer of the whole arrays, when row p of each block is row r of its whole array:
    row p of the block's layer is then row r of the whole layer, entry by entry. -/
theorem readout_block (A H : S50000x96.Idx → EReal) (WL : S96x96.Idx → EReal) (BL : S96.Idx → EReal)
    (WR : S96x96.Idx → EReal) (DW : S96x128.Idx → EReal) (DB : S128.Idx → EReal)
    (ab hb : S10000x96.Idx → EReal) (wl : S96x96.Idx → EReal) (bl : S96.Idx → EReal) (wr : S96x96.Idx → EReal)
    (dw : S96x128.Idx → EReal) (db : S128.Idx → EReal) (r : Fin 50000) (p : Fin 10000) (q : Fin 128)
    (ha : ∀ k : Fin 96, ab (ix2 p k) = A (ix2 r k)) (hh : ∀ k : Fin 96, hb (ix2 p k) = H (ix2 r k))
    (hwl : wl = WL) (hbl : bl = BL) (hwr : wr = WR) (hdw : dw = DW) (hdb : db = DB) :
    affine (sage ab hb wl bl wr) dw db (ix2 p q) = affine (sage A H WL BL WR) DW DB (ix2 r q) := by
  subst hwl hbl hwr hdw hdb
  exact affine_of_rows (sage ab hb wl bl wr) (sage A H wl bl wr) dw db p r q
    (fun k => sage_of_rows ab hb A H wl bl wr p r k ha hh)

variable (V : (c : Dev nD) → (b : Ref sig .tc) → Buf (Elt Ideal) ((c : Thread nD τ).loc b))

/-- The read-out of the neighbourhood-mean layer of the arrays the region finds on entry. -/
def readOut (c : Dev nD) : S50000x128.Idx → EReal :=
  affine
    (sage (V c (Pipeline.arrRef spec3 0) : S50000x96.Idx → EReal) (V c (Pipeline.arrRef spec3 1) : S50000x96.Idx → EReal)
      (V c (Pipeline.arrRef spec3 2) : S96x96.Idx → EReal) (V c (Pipeline.arrRef spec3 3) : S96.Idx → EReal)
      (V c (Pipeline.arrRef spec3 4) : S96x96.Idx → EReal))
    (V c (Pipeline.arrRef spec3 5) : S96x128.Idx → EReal) (V c (Pipeline.arrRef spec3 6) : S128.Idx → EReal)

/-- The printed index maps over the five grid points: the two row blocks and the output block move with the point,
    every weight array and bias stays. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

set_option maxHeartbeats 1000000 in
/-- WHAT POINT t WRITES BACK is block t of the read-out of the layer of the whole arrays. -/
theorem flushed (c : Dev nD) (t : Fin cfg3.N) :
    (dat3 (F := Ideal) V c).flushed 7 t = ((cfg3.win 7).blk t).view.read (Elt Ideal) (readOut V c) := by
  show (cfg3.win 7).cut (grid3.coords t) ((dat3 V c).after 7 t) = _
  rw [after3_7]
  unfold out3_7
  rw [View.canon_unit_zero zero2]
  simp only [View.ld_unit_zero (S := S10000x96) zero2, View.ld_unit_zero (S := S96x96) zero2,
    View.ld_unit_zero (S := S96) zero1, View.ld_unit_zero (S := S96x128) zero2, View.ld_unit_zero (S := S128) zero1]
  rw [Cert.KPay3.pay3_eq]
  obtain ⟨e00, e01, e10, e11, e20, e21, e30, e40, e41, e50, e51, e60, e70, e71⟩ := idx t
  have ht : t.val < 5 := by have h := t.isLt; have hN : cfg3.N = 5 := N_3; omega
  funext j
  obtain ⟨p, q, rfl⟩ : ∃ (p : Fin 10000) (q : Fin 128), j = ix2 p q := ⟨j 0, j 1, eq_ix2 j⟩
  have hr : t.val * 10000 + p.val < 50000 := by have := p.isLt; omega
  have hemb : ((cfg3.win 7).blk t).view.emb (ix2 p q) = ix2 (⟨t.val * 10000 + p.val, hr⟩ : Fin 50000) q := by
    funext a; apply Fin.ext
    match a with
    | ⟨0, _⟩ => show win3_7.index t (0 : Fin 2) * 10000 + 1 * p.val = t.val * 10000 + p.val; omega
    | ⟨1, _⟩ => show win3_7.index t (1 : Fin 2) * 128 + 1 * q.val = q.val; omega
  show affine (sage (iblk3 V c 0 t) (iblk3 V c 1 t) (iblk3 V c 2 t) (iblk3 V c 3 t) (iblk3 V c 4 t))
      (iblk3 V c 5 t) (iblk3 V c 6 t) (ix2 p q)
    = readOut V c (((cfg3.win 7).blk t).view.emb (ix2 p q))
  rw [hemb]
  refine readout_block _ _ _ _ _ _ _ _ _ _ _ _ _ _ ⟨t.val * 10000 + p.val, hr⟩ p q (fun k => ?_) (fun k => ?_)
    (funext fun y => ?_) (funext fun y => ?_) (funext fun y => ?_) (funext fun y => ?_) (funext fun y => ?_)
  · show V c (Pipeline.arrRef spec3 0) (((cfg3.win 0).blk t).view.emb (ix2 p k)) = _
    refine congrArg (V c (Pipeline.arrRef spec3 0)) ?_
    funext a; apply Fin.ext
    match a with
    | ⟨0, _⟩ => show win3_0.index t (0 : Fin 2) * 10000 + 1 * p.val = t.val * 10000 + p.val; omega
    | ⟨1, _⟩ => show win3_0.index t (1 : Fin 2) * 96 + 1 * k.val = k.val; omega
  · show V c (Pipeline.arrRef spec3 1) (((cfg3.win 1).blk t).view.emb (ix2 p k)) = _
    refine congrArg (V c (Pipeline.arrRef spec3 1)) ?_
    funext a; apply Fin.ext
    match a with
    | ⟨0, _⟩ => show win3_1.index t (0 : Fin 2) * 10000 + 1 * p.val = t.val * 10000 + p.val; omega
    | ⟨1, _⟩ => show win3_1.index t (1 : Fin 2) * 96 + 1 * k.val = k.val; omega
  · show V c (Pipeline.arrRef spec3 2) (((cfg3.win 2).blk t).view.emb y) = _
    refine congrArg (V c (Pipeline.arrRef spec3 2)) ?_
    funext a; apply Fin.ext
    match a with
    | ⟨0, _⟩ => show win3_2.index t (0 : Fin 2) * 96 + 1 * (y 0).val = (y 0).val; omega
    | ⟨1, _⟩ => show win3_2.index t (1 : Fin 2) * 96 + 1 * (y 1).val = (y 1).val; omega
  · show V c (Pipeline.arrRef spec3 3) (((cfg3.win 3).blk t).view.emb y) = _
    refine congrArg (V c (Pipeline.arrRef spec3 3)) ?_
    funext a; apply Fin.ext
    match a with
    | ⟨0, _⟩ => show win3_3.index t (0 : Fin 1) * 96 + 1 * (y 0).val = (y 0).val; omega
  · show V c (Pipeline.arrRef spec3 4) (((cfg3.win 4).blk t).view.emb y) = _
    refine congrArg (V c (Pipeline.arrRef spec3 4)) ?_
    funext a; apply Fin.ext
    match a with
    | ⟨0, _⟩ => show win3_4.index t (0 : Fin 2) * 96 + 1 * (y 0).val = (y 0).val; omega
    | ⟨1, _⟩ => show win3_4.index t (1 : Fin 2) * 96 + 1 * (y 1).val = (y 1).val; omega
  · show V c (Pipeline.arrRef spec3 5) (((cfg3.win 5).blk t).view.emb y) = _
    refine congrArg (V c (Pipeline.arrRef spec3 5)) ?_
    funext a; apply Fin.ext
    match a with
    | ⟨0, _⟩ => show win3_5.index t (0 : Fin 2) * 96 + 1 * (y 0).val = (y 0).val; omega
    | ⟨1, _⟩ => show win3_5.index t (1 : Fin 2) * 128 + 1 * (y 1).val = (y 1).val; omega
  · show V c (Pipeline.arrRef spec3 6) (((cfg3.win 6).blk t).view.emb y) = _
    refine congrArg (V c (Pipeline.arrRef spec3 6)) ?_
    funext a; apply Fin.ext
    match a with
    | ⟨0, _⟩ => show win3_6.index t (0 : Fin 1) * 128 + 1 * (y 0).val = (y 0).val; omega

/-- An index of the output array is in point t's block iff each coordinate is in the block's range on its axis. -/
theorem mem_blk (t : Fin cfg3.N) (i : S50000x128.Idx) :
    i ∈ ((cfg3.win 7).blk t).view.set ↔ ∀ a : Fin 2, win3_7.index t a * S10000x128.size a ≤ (i a).val
      ∧ (i a).val < win3_7.index t a * S10000x128.size a + S10000x128.size a := by
  show i ∈ ((View.whole main_v78).slice (win3_7.rect t)).set ↔ _
  rw [View.set_slice_whole, Rect.mem_set_unit]
  exact Iff.rfl

/-- Every row of the output lies in the block of the point numbered by its row divided by 10000. -/
theorem cover (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have hN : cfg3.N = 5 := N_3
  let t : Fin cfg3.N := ⟨(i 0).val / 10000, by rw [hN]; omega⟩
  obtain ⟨e00, e01, e10, e11, e20, e21, e30, e40, e41, e50, e51, e60, e70, e71⟩ := idx t
  have htv : t.val = (i 0).val / 10000 := rfl
  refine ⟨t, flush3_7 t, ?_⟩
  rw [mem_blk]
  intro a
  match a with
  | ⟨0, _⟩ =>
    show win3_7.index t (0 : Fin 2) * 10000 ≤ (i 0).val ∧ (i 0).val < win3_7.index t (0 : Fin 2) * 10000 + 10000
    omega
  | ⟨1, _⟩ =>
    show win3_7.index t (1 : Fin 2) * 128 ≤ (i 1).val ∧ (i 1).val < win3_7.index t (1 : Fin 2) * 128 + 128
    omega

/-- THE REGION'S OUTPUT ARRAY after the region: the read-out (weights in window 5, bias in window 6) of the
    neighbourhood-mean layer of the arrays found on entry (aggregated rows, own rows, the weights for the aggregated
    rows, the layer bias, the weights for the own rows). -/
theorem region3 (c : Dev nD) :
    (dat3 (F := Ideal) V c).arrAt 7 cfg3.N
      = affine
          (sage (V c (Pipeline.arrRef spec3 0) : S50000x96.Idx → EReal) (V c (Pipeline.arrRef spec3 1) : S50000x96.Idx → EReal)
            (V c (Pipeline.arrRef spec3 2) : S96x96.Idx → EReal) (V c (Pipeline.arrRef spec3 3) : S96.Idx → EReal)
            (V c (Pipeline.arrRef spec3 4) : S96x96.Idx → EReal))
          (V c (Pipeline.arrRef spec3 5) : S96x128.Idx → EReal) (V c (Pipeline.arrRef spec3 6) : S128.Idx → EReal) :=
  (dat3 (F := Ideal) V c).arrAt_eq_of_cover 7 (readOut V c) (fun t _ => flushed V c t) cover

end Cert.KRegion3

end
-- ==== Proof.Chain3.lean ====
/-
  The idealized kernel program from the end of its third region to its return.

  The host forms the neighbourhood mean of the features the third region left, cuts layer 2's weights and bias out of
  the stacked parameters, and widens the read-out weights [96, 40] and bias [40] to 128 columns by padding with a
  constant on the right. The fourth region leaves, in an array of 128 columns, the read-out (through the widened
  weights) of one more neighbourhood-mean layer; the host returns its first 40 columns. Column j < 40 of a read-out
  uses column j of the weights and entry j of the bias only, and the widened ones agree with the originals there, so
  the returned array is the read-out through the original weights: the padding never reaches the result.
-/
import proofs.«109989_j5858335391843_2_alg».proof.Proof.Chain2
import proofs.«109989_j5858335391843_2_alg».proof.Proof.KRegion3
import Idealize.ShloMosaic.Lib.StableHlo.Run
import proofs.«109989_j5858335391843_2_alg».proof.Proof.LibTypedRef
import Idealize.ShloMosaic.Lib.KernelVsHost

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.SageSpec Cert.SageHost Cert.KernelIdeal.RegionValue

variable (m : (ℓ : Loc nD τ sig) → Buf (Elt Ideal) ℓ) (ρ : Dev nD → PrngReg) (c : Dev nD)

open Idealize.ShloMosaic.ValueIdx

/-- The read-out weights widened to 128 columns. -/
def padW (dw : (⟨S96x40, .f32⟩ : BufTy).Contents (Elt Ideal)) : (⟨S96x128, .f32⟩ : BufTy).Contents (Elt Ideal) :=
  pad S96x128 ![0, 0] ![0, 88] ![0, 0] dw (sitofp (F := Ideal) .f32 (constantI S_ 32 0#32)) pads_S96x40_S96x128_000_0880 h_S_

/-- The read-out bias widened to 128 entries. -/
def padB (db : (⟨S40, .f32⟩ : BufTy).Contents (Elt Ideal)) : (⟨S128, .f32⟩ : BufTy).Contents (Elt Ideal) :=
  pad S128 ![0] ![88] ![0] db (sitofp (F := Ideal) .f32 (constantI S_ 32 0#32)) pads_S40_S128_0880 h_S_

/-- The first 40 columns of a read-out through the widened weights are the read-out through the original ones. -/
theorem slice_readout (H : S50000x96.Idx → EReal) (dw : (⟨S96x40, .f32⟩ : BufTy).Contents (Elt Ideal))
    (db : (⟨S40, .f32⟩ : BufTy).Contents (Elt Ideal)) :
    extractStridedSlice S50000x40 ![0, 0] (affine H (padW dw) (padB db)) slices_S50000x128_S50000x40_0_0
      = affine H dw db := by
  funext i
  obtain ⟨p, q, rfl⟩ : ∃ (p : Fin 50000) (q : Fin 40), i = ix2 p q := ⟨i 0, i 1, eq_ix2 i⟩
  have hq : q.val < 128 := by have := q.isLt; omega
  refine (extractStridedSlice_apply ![0, 0] _ slices_S50000x128_S50000x40_0_0 (ix2 p q)
    (ix2 p (⟨q.val, hq⟩ : Fin 128)) (fun a => ?_)).trans ?_
  · match a with
    | ⟨0, _⟩ => show p.val = 0 + p.val; omega
    | ⟨1, _⟩ => show q.val = 0 + q.val; omega
  · refine affine_of_cols H (padW dw) (padB db) dw db p ⟨q.val, hq⟩ q (fun k => ?_) ?_
    · unfold padW
      refine pad_apply_of_inside ![0, 0] ![0, 88] ![0, 0] dw _ pads_S96x40_S96x128_000_0880 h_S_
        (ix2 k (⟨q.val, hq⟩ : Fin 128)) (ix2 k q) (fun a => ?_)
      match a with
      | ⟨0, _⟩ => show k.val = 0 + k.val * (0 + 1); omega
      | ⟨1, _⟩ => show q.val = 0 + q.val * (0 + 1); omega
    · unfold padB
      refine pad_apply_of_inside ![0] ![88] ![0] db _ pads_S40_S128_0880 h_S_
        (ix1 (⟨q.val, hq⟩ : Fin 128)) (ix1 q) (fun a => ?_)
      match a with
      | ⟨0, _⟩ => show q.val = 0 + q.val * (0 + 1); omega

/-- A buffer read after the host operations between regions 2 and 3. -/
macro "read_stage3" : tactic => `(tactic| (dsimp only [W17, W16, W15, W14, W13, W12, W11, hostOps3_6, hostOps3_5, hostOps3_4, hostOps3_3, hostOps3_2, hostOps3_1, hostOps3]; after_results))

/-! ## Contents at a buffer's own type

The outlined select reads and writes its operands through typed references, which move contents between a tensor
value's type and its buffer's declared type; for these buffers the two types are the same, so the moves are the
identity. -/

theorem to_v69 (p1 p2 p3) (v : (⟨S50000x96, .f32⟩ : BufTy).Contents (Elt Ideal)) :
    (TRef.of (sig := sig) (T := ⟨S50000x96, .f32⟩) main_v69 p1 p2 p3).toBuf v = v := rfl
theorem of_v66 (p1 p2 p3) (v : main_v66.ty.Contents (Elt Ideal)) :
    (TRef.of (sig := sig) (T := ⟨S50000x1, .i1⟩) main_v66 p1 p2 p3).ofBuf v = v := rfl
theorem of_v68 (p1 p2 p3) (v : main_v68.ty.Contents (Elt Ideal)) :
    (TRef.of (sig := sig) (T := ⟨S50000x96, .f32⟩) main_v68 p1 p2 p3).ofBuf v = v := rfl
theorem of_cst_15 (p1 p2 p3) (v : main_cst_15.ty.Contents (Elt Ideal)) :
    (TRef.of (sig := sig) (T := ⟨S_, .f32⟩) main_cst_15 p1 p2 p3).ofBuf v = v := rfl

/-! ## On entry to region 3 -/

set_option maxHeartbeats 1000000 in
/-- The neighbourhood mean of the features the previous region left. -/
theorem W17_v69 : W17 m ρ c (Proc.devRef .tc main_v69) = meanOf (m ((c : Thread nD τ).loc main_arg1)) (W10 m ρ c (Proc.devRef .tc main_v54)) := by
  dsimp only [W17, W16, W15, W14, W13, W12, W11, hostOps3_6, hostOps3_5, hostOps3_4, hostOps3_3, hostOps3_2, hostOps3_1, hostOps3]
  after_results_simp
  simp only [Idealize.ShloMosaic.TypedRef.ofBuf_toBuf, to_v69, of_v66, of_v68, of_cst_15]
  rw [W10_v1 m ρ c, W10_v3 m ρ c, W10_v7 m ρ c, W10_v9 m ρ c]
  rfl
theorem W17_v54 : W17 m ρ c (Proc.devRef .tc main_v54) = W10 m ρ c (Proc.devRef .tc main_v54) := by read_stage3 <;> rfl
theorem W17_v73 : W17 m ρ c (Proc.devRef .tc main_v73) = wOf2 (m ((c : Thread nD τ).loc main_arg4)) := by
  read_stage3
  rw [W10_arg4 m ρ c]
  rfl
theorem W17_v75 : W17 m ρ c (Proc.devRef .tc main_v75) = bOf2 (m ((c : Thread nD τ).loc main_arg5)) := by
  read_stage3
  rw [W10_arg5 m ρ c]
  rfl
theorem W17_v77 : W17 m ρ c (Proc.devRef .tc main_v77) = wOf2 (m ((c : Thread nD τ).loc main_arg6)) := by
  read_stage3
  rw [W10_arg6 m ρ c]
  rfl

/-! ## The widened read-out parameters -/

theorem to_v70 (p1 p2 p3) (v : (⟨S96x128, .f32⟩ : BufTy).Contents (Elt Ideal)) :
    (TRef.of (sig := sig) (T := ⟨S96x128, .f32⟩) main_v70 p1 p2 p3).toBuf v = v := rfl
theorem of_arg7 (p1 p2 p3) (v : main_arg7.ty.Contents (Elt Ideal)) :
    (TRef.of (sig := sig) (T := ⟨S96x40, .f32⟩) main_arg7 p1 p2 p3).ofBuf v = v := rfl
theorem of_c_16 (p1 p2 p3) (v : main_c_16.ty.Contents (Elt Ideal)) :
    (TRef.of (sig := sig) (T := ⟨S_, .i32⟩) main_c_16 p1 p2 p3).ofBuf v = v := rfl
theorem to_v71 (p1 p2 p3) (v : (⟨S128, .f32⟩ : BufTy).Contents (Elt Ideal)) :
    (TRef.of (sig := sig) (T := ⟨S128, .f32⟩) main_v71 p1 p2 p3).toBuf v = v := rfl
theorem of_arg8 (p1 p2 p3) (v : main_arg8.ty.Contents (Elt Ideal)) :
    (TRef.of (sig := sig) (T := ⟨S40, .f32⟩) main_arg8 p1 p2 p3).ofBuf v = v := rfl
theorem of_c_17 (p1 p2 p3) (v : main_c_17.ty.Contents (Elt Ideal)) :
    (TRef.of (sig := sig) (T := ⟨S_, .i32⟩) main_c_17 p1 p2 p3).ofBuf v = v := rfl

theorem W17_v70 : W17 m ρ c (Proc.devRef .tc main_v70) = padW (m ((c : Thread nD τ).loc main_arg7)) := by
  read_stage3
  simp only [Idealize.ShloMosaic.TypedRef.ofBuf_toBuf, to_v70, of_arg7, of_c_16]
  rw [W10_arg7 m ρ c]
  rfl
theorem W17_v71 : W17 m ρ c (Proc.devRef .tc main_v71) = padB (m ((c : Thread nD τ).loc main_arg8)) := by
  read_stage3
  simp only [Idealize.ShloMosaic.TypedRef.ofBuf_toBuf, to_v71, of_arg8, of_c_17]
  rw [W10_arg8 m ρ c]
  rfl

/-! ## After region 3, and the return -/

/-- Region 3's output: the read-out, through the widened weights, of one more neighbourhood-mean layer. -/
theorem W18_v78 : W18 m ρ c (Proc.devRef .tc main_v78)
    = affine (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (padW (m ((c : Thread nD τ).loc main_arg7))) (padB (m ((c : Thread nD τ).loc main_arg8))) :=
  (W18_arr m ρ c 7).trans ((Cert.KRegion3.region3 (V17 m ρ) c).trans
    (affine_congr
      (sage_congr ((W17_v69 m ρ c).trans (congrArg (meanOf (m ((c : Thread nD τ).loc main_arg1))) (W10_v54 m ρ c))) ((W17_v54 m ρ c).trans (W10_v54 m ρ c))
        (W17_v73 m ρ c) (W17_v75 m ρ c) (W17_v77 m ρ c))
      (W17_v70 m ρ c) (W17_v71 m ρ c)))

/-- THE RETURNED ARRAY of the idealized kernel program: the result both programs compute. -/
theorem W19_v79 : W19 m ρ c (Proc.devRef .tc main_v79)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e : W19 m ρ c (Proc.devRef .tc main_v79)
      = extractStridedSlice S50000x40 ![0, 0] (W18 m ρ c (Proc.devRef .tc main_v78)) slices_S50000x128_S50000x40_0_0 := by
    dsimp only [W19, hostOps4]; after_results <;> rfl
  rw [e, W18_v78 m ρ c]
  exact slice_readout _ _ _

end Cert.KernelIdeal.Chain

end
-- ==== Proof.lean ====
/-
  The kernel and its reference compute one function.

  Both programs take node features x [50000, 128], an edge list [2, 800000] and the parameters of an encoder, three
  neighbourhood-mean layers and a linear read-out. Both compute

      h0 = max (x·W_enc + b_enc) 0
      h(i+1) = max ((mean(h i)·Wl_i + bl_i) + (h i)·Wr_i) 0        i = 0, 1, 2
      out = h3·W_dec + b_dec

  where mean(h) gathers h along the edge sources, sums at the edge targets, divides by the number of arriving edges
  floored at one and is zero where no edge arrives. The reference does all of it with whole-array operations. The
  kernel does the gather / sum / divide with the SAME whole-array operations and each dense step in a tiled region of
  five blocks of 10000 rows: a matrix product into a zero accumulator, a bias row copied down the rows, the maximum
  with zero; the last region also applies the read-out, through weights and a bias widened to 128 columns, and the
  host returns the first 40 columns.

  Read over the extended reals, a matrix product into zeros and a whole-array product are the same sum over k in the
  same order of operands; a bias row copied down the rows and a bias broadcast along the columns read the same entry;
  a block of rows of a row-wise layer is the layer of that block of rows, and the blocks tile the rows; the widened
  columns never reach the returned ones. The additions are grouped identically in the two programs, ((mean·Wl + bl) +
  h·Wr), so no law of arithmetic beyond reading both sides entry by entry is used, and the finiteness of the inputs is
  never needed: the claim holds at every extended-real input. The shared whole-array operations (the neighbourhood
  mean, the slices of the stacked parameters) are carried as one function of their operands and never opened.

  The three frames are the programs' runs with the results dropped; nothing was rewritten between the kernel and its
  idealization, so that conjunct is trivial.
-/
import proofs.«109989_j5858335391843_2_alg».proof.Defs
import proofs.«109989_j5858335391843_2_alg».proof.Proof.Gen.Kernel
import proofs.«109989_j5858335391843_2_alg».proof.Proof.Gen.Kernel.Skeleton
import proofs.«109989_j5858335391843_2_alg».proof.Proof.Gen.Kernel.Launch
import proofs.«109989_j5858335391843_2_alg».proof.Proof.Gen.Kernel.Points
import proofs.«109989_j5858335391843_2_alg».proof.Proof.Gen.Kernel.Frame
import proofs.«109989_j5858335391843_2_alg».proof.Proof.Gen.KernelIdeal
import proofs.«109989_j5858335391843_2_alg».proof.Proof.Gen.KernelIdeal.Skeleton
import proofs.«109989_j5858335391843_2_alg».proof.Proof.Gen.KernelIdeal.Launch
import proofs.«109989_j5858335391843_2_alg».proof.Proof.Gen.KernelIdeal.Points
import proofs.«109989_j5858335391843_2_alg».proof.Proof.Gen.KernelIdeal.Frame
import proofs.«109989_j5858335391843_2_alg».proof.Proof.Gen.ReferenceIdeal
import proofs.«109989_j5858335391843_2_alg».proof.Proof.Gen.Pre_finite_inputs
import proofs.«109989_j5858335391843_2_alg».proof.Proof.RefRunPatched
import proofs.«109989_j5858335391843_2_alg».proof.Proof.RefValue
import proofs.«109989_j5858335391843_2_alg».proof.Proof.KRun
import proofs.«109989_j5858335391843_2_alg».proof.Proof.Chain3
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Over the extended reals both programs end with the same result array: the read-out of three neighbourhood-mean
    layers on the encoded features, as one function of the launch arguments. -/
theorem algebraic : Cert.algebraic_KernelIdeal_ReferenceIdeal := by
  intro m ρ m' ρ' _ hagree
  refine ⟨fun c => Cert.SageHost.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.W19_v79 m ρ c), (h c).2⟩)
      (Cert.KernelIdeal.RunValue.run_main (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8⟩ := hagree c
    rw [Cert.RefValue.result_eq m' c, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
